-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S8x512 : Shape := ⟨2, ![8, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16x4096x512 .f32) (main_arg1 : FVec F S8x512 .f32) (main_arg2 : FVec F S8x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16x4096x512 : Shape := ⟨3, ![16, 4096, 512]⟩
abbrev S8x512 : Shape := ⟨2, ![8, 512]⟩
abbrev S1x4096x512 : Shape := ⟨3, ![1, 4096, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 4
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S8x512, .f32⟩
  | .hbm, ⟨2, _⟩ => ⟨S8x512, .f32⟩
  | .hbm, ⟨3, _⟩ => ⟨S16x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S8x512, .f32⟩
  | .local _ .vmem, ⟨3, _⟩ => ⟨S8x512, .f32⟩
  | .local _ .vmem, ⟨4, _⟩ => ⟨S1x4096x512, .f32⟩
  | .local _ .vmem, ⟨5, _⟩ => ⟨S1x4096x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x512_S1x512x512_0_0_0 : ∀ a, (![0, 0, 0] : Fin 3 → Nat) a + S1x512x512.size a ≤ S1x4096x512.size a
  h_S1x512x512 : 0 < S1x512x512.numel
  shapeCasts_S1x512x512_S512x512 : S1x512x512.ShapeCasts S512x512
  inb_S8x512_S1x512_7_0 : ∀ a, (![7, 0] : Fin 2 → Nat) a + S1x512.size a ≤ S8x512.size a
  h_S1x512 : 0 < S1x512.numel
  shapeCasts_S1x512_S512 : S1x512.ShapeCasts S512
  rotates_S512x512_d0 : S512x512.Rotates 0 none
  iota_S512x512_d0_w32 : S512x512.Iotas .tc 32 [0]
  shapeCasts_S512_S1x512 : S512.ShapeCasts S1x512
  broadcasts_S1x512_S512x512 : S1x512.Broadcasts S512x512
  inb_S8x512_S1x512_6_0 : ∀ a, (![6, 0] : Fin 2 → Nat) a + S1x512.size a ≤ S8x512.size a
  inb_S8x512_S1x512_5_0 : ∀ a, (![5, 0] : Fin 2 → Nat) a + S1x512.size a ≤ S8x512.size a
  inb_S8x512_S1x512_4_0 : ∀ a, (![4, 0] : Fin 2 → Nat) a + S1x512.size a ≤ S8x512.size a
  inb_S8x512_S1x512_3_0 : ∀ a, (![3, 0] : Fin 2 → Nat) a + S1x512.size a ≤ S8x512.size a
  inb_S8x512_S1x512_2_0 : ∀ a, (![2, 0] : Fin 2 → Nat) a + S1x512.size a ≤ S8x512.size a
  inb_S8x512_S1x512_0_0 : ∀ a, (![0, 0] : Fin 2 → Nat) a + S1x512.size a ≤ S8x512.size a
  inb_S1x4096x512_S1x512x512_0_1_0 : ∀ a, (![0, 1, 0] : Fin 3 → Nat) a + S1x512x512.size a ≤ S1x4096x512.size a
  inb_S8x512_S1x512_1_0 : ∀ a, (![1, 0] : Fin 2 → Nat) a + S1x512.size a ≤ S8x512.size a
  inb_S1x4096x512_S1x512x512_0_4_0 : ∀ a, (![0, 4, 0] : Fin 3 → Nat) a + S1x512x512.size a ≤ S1x4096x512.size a
  inb_S1x4096x512_S1x512x512_0_7_0 : ∀ a, (![0, 7, 0] : Fin 3 → Nat) a + S1x512x512.size a ≤ S1x4096x512.size a
  inb_S1x4096x512_S1x512x512_0_10_0 : ∀ a, (![0, 10, 0] : Fin 3 → Nat) a + S1x512x512.size a ≤ S1x4096x512.size a
  inb_S1x4096x512_S1x512x512_0_13_0 : ∀ a, (![0, 13, 0] : Fin 3 → Nat) a + S1x512x512.size a ≤ S1x4096x512.size a
  inb_S1x4096x512_S1x512x512_0_16_0 : ∀ a, (![0, 16, 0] : Fin 3 → Nat) a + S1x512x512.size a ≤ S1x4096x512.size a
  shapeCasts_S512x512_S1x512x512 : S512x512.ShapeCasts S1x512x512
  inb_S1x4096x512_S1x512x512_0_512_0 : ∀ a, (![0, 512, 0] : Fin 3 → Nat) a + S1x512x512.size a ≤ S1x4096x512.size a
  inb_S1x4096x512_S1x512x512_0_511_0 : ∀ a, (![0, 511, 0] : Fin 3 → Nat) a + S1x512x512.size a ≤ S1x4096x512.size a
  inb_S1x4096x512_S1x512x512_0_508_0 : ∀ a, (![0, 508, 0] : Fin 3 → Nat) a + S1x512x512.size a ≤ S1x4096x512.size a
  inb_S1x4096x512_S1x512x512_0_505_0 : ∀ a, (![0, 505, 0] : Fin 3 → Nat) a + S1x512x512.size a ≤ S1x4096x512.size a
  inb_S1x4096x512_S1x512x512_0_502_0 : ∀ a, (![0, 502, 0] : Fin 3 → Nat) a + S1x512x512.size a ≤ S1x4096x512.size a
  inb_S1x4096x512_S1x512x512_0_499_0 : ∀ a, (![0, 499, 0] : Fin 3 → Nat) a + S1x512x512.size a ≤ S1x4096x512.size a
  inb_S1x4096x512_S1x512x512_0_496_0 : ∀ a, (![0, 496, 0] : Fin 3 → Nat) a + S1x512x512.size a ≤ S1x4096x512.size a
  inb_S1x4096x512_S1x512x512_0_513_0 : ∀ a, (![0, 513, 0] : Fin 3 → Nat) a + S1x512x512.size a ≤ S1x4096x512.size a
  inb_S1x4096x512_S1x512x512_0_516_0 : ∀ a, (![0, 516, 0] : Fin 3 → Nat) a + S1x512x512.size a ≤ S1x4096x512.size a
  inb_S1x4096x512_S1x512x512_0_519_0 : ∀ a, (![0, 519, 0] : Fin 3 → Nat) a + S1x512x512.size a ≤ S1x4096x512.size a
  inb_S1x4096x512_S1x512x512_0_522_0 : ∀ a, (![0, 522, 0] : Fin 3 → Nat) a + S1x512x512.size a ≤ S1x4096x512.size a
  inb_S1x4096x512_S1x512x512_0_525_0 : ∀ a, (![0, 525, 0] : Fin 3 → Nat) a + S1x512x512.size a ≤ S1x4096x512.size a
  inb_S1x4096x512_S1x512x512_0_528_0 : ∀ a, (![0, 528, 0] : Fin 3 → Nat) a + S1x512x512.size a ≤ S1x4096x512.size a
  inb_S1x4096x512_S1x512x512_0_1024_0 : ∀ a, (![0, 1024, 0] : Fin 3 → Nat) a + S1x512x512.size a ≤ S1x4096x512.size a
  inb_S1x4096x512_S1x512x512_0_1023_0 : ∀ a, (![0, 1023, 0] : Fin 3 → Nat) a + S1x512x512.size a ≤ S1x4096x512.size a
  inb_S1x4096x512_S1x512x512_0_1020_0 : ∀ a, (![0, 1020, 0] : Fin 3 → Nat) a + S1x512x512.size a ≤ S1x4096x512.size a
  inb_S1x4096x512_S1x512x512_0_1017_0 : ∀ a, (![0, 1017, 0] : Fin 3 → Nat) a + S1x512x512.size a ≤ S1x4096x512.size a
  inb_S1x4096x512_S1x512x512_0_1014_0 : ∀ a, (![0, 1014, 0] : Fin 3 → Nat) a + S1x512x512.size a ≤ S1x4096x512.size a
  inb_S1x4096x512_S1x512x512_0_1011_0 : ∀ a, (![0, 1011, 0] : Fin 3 → Nat) a + S1x512x512.size a ≤ S1x4096x512.size a
  inb_S1x4096x512_S1x512x512_0_1008_0 : ∀ a, (![0, 1008, 0] : Fin 3 → Nat) a + S1x512x512.size a ≤ S1x4096x512.size a
  inb_S1x4096x512_S1x512x512_0_1025_0 : ∀ a, (![0, 1025, 0] : Fin 3 → Nat) a + S1x512x512.size a ≤ S1x4096x512.size a
  inb_S1x4096x512_S1x512x512_0_1028_0 : ∀ a, (![0, 1028, 0] : Fin 3 → Nat) a + S1x512x512.size a ≤ S1x4096x512.size a
  inb_S1x4096x512_S1x512x512_0_1031_0 : ∀ a, (![0, 1031, 0] : Fin 3 → Nat) a + S1x512x512.size a ≤ S1x4096x512.size a
  inb_S1x4096x512_S1x512x512_0_1034_0 : ∀ a, (![0, 1034, 0] : Fin 3 → Nat) a + S1x512x512.size a ≤ S1x4096x512.size a
  inb_S1x4096x512_S1x512x512_0_1037_0 : ∀ a, (![0, 1037, 0] : Fin 3 → Nat) a + S1x512x512.size a ≤ S1x4096x512.size a
  inb_S1x4096x512_S1x512x512_0_1040_0 : ∀ a, (![0, 1040, 0] : Fin 3 → Nat) a + S1x512x512.size a ≤ S1x4096x512.size a
  inb_S1x4096x512_S1x512x512_0_1536_0 : ∀ a, (![0, 1536, 0] : Fin 3 → Nat) a + S1x512x512.size a ≤ S1x4096x512.size a
  inb_S1x4096x512_S1x512x512_0_1535_0 : ∀ a, (![0, 1535, 0] : Fin 3 → Nat) a + S1x512x512.size a ≤ S1x4096x512.size a
  inb_S1x4096x512_S1x512x512_0_1532_0 : ∀ a, (![0, 1532, 0] : Fin 3 → Nat) a + S1x512x512.size a ≤ S1x4096x512.size a
  inb_S1x4096x512_S1x512x512_0_1529_0 : ∀ a, (![0, 1529, 0] : Fin 3 → Nat) a + S1x512x512.size a ≤ S1x4096x512.size a
  inb_S1x4096x512_S1x512x512_0_1526_0 : ∀ a, (![0, 1526, 0] : Fin 3 → Nat) a + S1x512x512.size a ≤ S1x4096x512.size a
  inb_S1x4096x512_S1x512x512_0_1523_0 : ∀ a, (![0, 1523, 0] : Fin 3 → Nat) a + S1x512x512.size a ≤ S1x4096x512.size a
  inb_S1x4096x512_S1x512x512_0_1520_0 : ∀ a, (![0, 1520, 0] : Fin 3 → Nat) a + S1x512x512.size a ≤ S1x4096x512.size a
  inb_S1x4096x512_S1x512x512_0_1537_0 : ∀ a, (![0, 1537, 0] : Fin 3 → Nat) a + S1x512x512.size a ≤ S1x4096x512.size a
  inb_S1x4096x512_S1x512x512_0_1540_0 : ∀ a, (![0, 1540, 0] : Fin 3 → Nat) a + S1x512x512.size a ≤ S1x4096x512.size a
  inb_S1x4096x512_S1x512x512_0_1543_0 : ∀ a, (![0, 1543, 0] : Fin 3 → Nat) a + S1x512x512.size a ≤ S1x4096x512.size a
  inb_S1x4096x512_S1x512x512_0_1546_0 : ∀ a, (![0, 1546, 0] : Fin 3 → Nat) a + S1x512x512.size a ≤ S1x4096x512.size a
  inb_S1x4096x512_S1x512x512_0_1549_0 : ∀ a, (![0, 1549, 0] : Fin 3 → Nat) a + S1x512x512.size a ≤ S1x4096x512.size a
  inb_S1x4096x512_S1x512x512_0_1552_0 : ∀ a, (![0, 1552, 0] : Fin 3 → Nat) a + S1x512x512.size a ≤ S1x4096x512.size a
  inb_S1x4096x512_S1x512x512_0_2048_0 : ∀ a, (![0, 2048, 0] : Fin 3 → Nat) a + S1x512x512.size a ≤ S1x4096x512.size a
  inb_S1x4096x512_S1x512x512_0_2047_0 : ∀ a, (![0, 2047, 0] : Fin 3 → Nat) a + S1x512x512.size a ≤ S1x4096x512.size a
  inb_S1x4096x512_S1x512x512_0_2044_0 : ∀ a, (![0, 2044, 0] : Fin 3 → Nat) a + S1x512x512.size a ≤ S1x4096x512.size a
  inb_S1x4096x512_S1x512x512_0_2041_0 : ∀ a, (![0, 2041, 0] : Fin 3 → Nat) a + S1x512x512.size a ≤ S1x4096x512.size a
  inb_S1x4096x512_S1x512x512_0_2038_0 : ∀ a, (![0, 2038, 0] : Fin 3 → Nat) a + S1x512x512.size a ≤ S1x4096x512.size a
  inb_S1x4096x512_S1x512x512_0_2035_0 : ∀ a, (![0, 2035, 0] : Fin 3 → Nat) a + S1x512x512.size a ≤ S1x4096x512.size a
  inb_S1x4096x512_S1x512x512_0_2032_0 : ∀ a, (![0, 2032, 0] : Fin 3 → Nat) a + S1x512x512.size a ≤ S1x4096x512.size a
  inb_S1x4096x512_S1x512x512_0_2049_0 : ∀ a, (![0, 2049, 0] : Fin 3 → Nat) a + S1x512x512.size a ≤ S1x4096x512.size a
  inb_S1x4096x512_S1x512x512_0_2052_0 : ∀ a, (![0, 2052, 0] : Fin 3 → Nat) a + S1x512x512.size a ≤ S1x4096x512.size a
  inb_S1x4096x512_S1x512x512_0_2055_0 : ∀ a, (![0, 2055, 0] : Fin 3 → Nat) a + S1x512x512.size a ≤ S1x4096x512.size a
  inb_S1x4096x512_S1x512x512_0_2058_0 : ∀ a, (![0, 2058, 0] : Fin 3 → Nat) a + S1x512x512.size a ≤ S1x4096x512.size a
  inb_S1x4096x512_S1x512x512_0_2061_0 : ∀ a, (![0, 2061, 0] : Fin 3 → Nat) a + S1x512x512.size a ≤ S1x4096x512.size a
  inb_S1x4096x512_S1x512x512_0_2064_0 : ∀ a, (![0, 2064, 0] : Fin 3 → Nat) a + S1x512x512.size a ≤ S1x4096x512.size a
  inb_S1x4096x512_S1x512x512_0_2560_0 : ∀ a, (![0, 2560, 0] : Fin 3 → Nat) a + S1x512x512.size a ≤ S1x4096x512.size a
  inb_S1x4096x512_S1x512x512_0_2559_0 : ∀ a, (![0, 2559, 0] : Fin 3 → Nat) a + S1x512x512.size a ≤ S1x4096x512.size a
  inb_S1x4096x512_S1x512x512_0_2556_0 : ∀ a, (![0, 2556, 0] : Fin 3 → Nat) a + S1x512x512.size a ≤ S1x4096x512.size a
  inb_S1x4096x512_S1x512x512_0_2553_0 : ∀ a, (![0, 2553, 0] : Fin 3 → Nat) a + S1x512x512.size a ≤ S1x4096x512.size a
  inb_S1x4096x512_S1x512x512_0_2550_0 : ∀ a, (![0, 2550, 0] : Fin 3 → Nat) a + S1x512x512.size a ≤ S1x4096x512.size a
  inb_S1x4096x512_S1x512x512_0_2547_0 : ∀ a, (![0, 2547, 0] : Fin 3 → Nat) a + S1x512x512.size a ≤ S1x4096x512.size a
  inb_S1x4096x512_S1x512x512_0_2544_0 : ∀ a, (![0, 2544, 0] : Fin 3 → Nat) a + S1x512x512.size a ≤ S1x4096x512.size a
  inb_S1x4096x512_S1x512x512_0_2561_0 : ∀ a, (![0, 2561, 0] : Fin 3 → Nat) a + S1x512x512.size a ≤ S1x4096x512.size a
  inb_S1x4096x512_S1x512x512_0_2564_0 : ∀ a, (![0, 2564, 0] : Fin 3 → Nat) a + S1x512x512.size a ≤ S1x4096x512.size a
  inb_S1x4096x512_S1x512x512_0_2567_0 : ∀ a, (![0, 2567, 0] : Fin 3 → Nat) a + S1x512x512.size a ≤ S1x4096x512.size a
  inb_S1x4096x512_S1x512x512_0_2570_0 : ∀ a, (![0, 2570, 0] : Fin 3 → Nat) a + S1x512x512.size a ≤ S1x4096x512.size a
  inb_S1x4096x512_S1x512x512_0_2573_0 : ∀ a, (![0, 2573, 0] : Fin 3 → Nat) a + S1x512x512.size a ≤ S1x4096x512.size a
  inb_S1x4096x512_S1x512x512_0_2576_0 : ∀ a, (![0, 2576, 0] : Fin 3 → Nat) a + S1x512x512.size a ≤ S1x4096x512.size a
  inb_S1x4096x512_S1x512x512_0_3072_0 : ∀ a, (![0, 3072, 0] : Fin 3 → Nat) a + S1x512x512.size a ≤ S1x4096x512.size a
  inb_S1x4096x512_S1x512x512_0_3071_0 : ∀ a, (![0, 3071, 0] : Fin 3 → Nat) a + S1x512x512.size a ≤ S1x4096x512.size a
  inb_S1x4096x512_S1x512x512_0_3068_0 : ∀ a, (![0, 3068, 0] : Fin 3 → Nat) a + S1x512x512.size a ≤ S1x4096x512.size a
  inb_S1x4096x512_S1x512x512_0_3065_0 : ∀ a, (![0, 3065, 0] : Fin 3 → Nat) a + S1x512x512.size a ≤ S1x4096x512.size a
  inb_S1x4096x512_S1x512x512_0_3062_0 : ∀ a, (![0, 3062, 0] : Fin 3 → Nat) a + S1x512x512.size a ≤ S1x4096x512.size a
  inb_S1x4096x512_S1x512x512_0_3059_0 : ∀ a, (![0, 3059, 0] : Fin 3 → Nat) a + S1x512x512.size a ≤ S1x4096x512.size a
  inb_S1x4096x512_S1x512x512_0_3056_0 : ∀ a, (![0, 3056, 0] : Fin 3 → Nat) a + S1x512x512.size a ≤ S1x4096x512.size a
  inb_S1x4096x512_S1x512x512_0_3073_0 : ∀ a, (![0, 3073, 0] : Fin 3 → Nat) a + S1x512x512.size a ≤ S1x4096x512.size a
  inb_S1x4096x512_S1x512x512_0_3076_0 : ∀ a, (![0, 3076, 0] : Fin 3 → Nat) a + S1x512x512.size a ≤ S1x4096x512.size a
  inb_S1x4096x512_S1x512x512_0_3079_0 : ∀ a, (![0, 3079, 0] : Fin 3 → Nat) a + S1x512x512.size a ≤ S1x4096x512.size a
  inb_S1x4096x512_S1x512x512_0_3082_0 : ∀ a, (![0, 3082, 0] : Fin 3 → Nat) a + S1x512x512.size a ≤ S1x4096x512.size a
  inb_S1x4096x512_S1x512x512_0_3085_0 : ∀ a, (![0, 3085, 0] : Fin 3 → Nat) a + S1x512x512.size a ≤ S1x4096x512.size a
  inb_S1x4096x512_S1x512x512_0_3088_0 : ∀ a, (![0, 3088, 0] : Fin 3 → Nat) a + S1x512x512.size a ≤ S1x4096x512.size a
  inb_S1x4096x512_S1x512x512_0_3584_0 : ∀ a, (![0, 3584, 0] : Fin 3 → Nat) a + S1x512x512.size a ≤ S1x4096x512.size a
  inb_S1x4096x512_S1x512x512_0_3583_0 : ∀ a, (![0, 3583, 0] : Fin 3 → Nat) a + S1x512x512.size a ≤ S1x4096x512.size a
  inb_S1x4096x512_S1x512x512_0_3580_0 : ∀ a, (![0, 3580, 0] : Fin 3 → Nat) a + S1x512x512.size a ≤ S1x4096x512.size a
  inb_S1x4096x512_S1x512x512_0_3577_0 : ∀ a, (![0, 3577, 0] : Fin 3 → Nat) a + S1x512x512.size a ≤ S1x4096x512.size a
  inb_S1x4096x512_S1x512x512_0_3574_0 : ∀ a, (![0, 3574, 0] : Fin 3 → Nat) a + S1x512x512.size a ≤ S1x4096x512.size a
  inb_S1x4096x512_S1x512x512_0_3571_0 : ∀ a, (![0, 3571, 0] : Fin 3 → Nat) a + S1x512x512.size a ≤ S1x4096x512.size a
  inb_S1x4096x512_S1x512x512_0_3568_0 : ∀ a, (![0, 3568, 0] : Fin 3 → Nat) a + S1x512x512.size a ≤ S1x4096x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S16x4096x512.size a
  hwx0_0 : ∀ i : grid0.Coords, EltTy.bits .f32 = 32 ∨ (Rect.block (s := S16x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x512.size a ≤ S16x4096x512.size a
  hwx0_3 : ∀ i : grid0.Coords, EltTy.bits .f32 = 32 ∨ (Rect.block (s := S16x4096x512) S1x4096x512.size (cc0_transform_3 i) (hinb0_3 i)).WholeWords (EltTy.packing .f32)

variable [Facts₀]

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S8x512 : Shape := ⟨2, ![8, 512]⟩
abbrev S_ : Shape := ⟨0, ![]⟩
abbrev S16x4097x512 : Shape := ⟨3, ![16, 4097, 512]⟩
abbrev S1x512 : Shape := ⟨2, ![1, 512]⟩
abbrev S512 : Shape := ⟨1, ![512]⟩
abbrev S1x1x512 : Shape := ⟨3, ![1, 1, 512]⟩
abbrev S16x4100x512 : Shape := ⟨3, ![16, 4100, 512]⟩
abbrev S16x4103x512 : Shape := ⟨3, ![16, 4103, 512]⟩
abbrev S16x4106x512 : Shape := ⟨3, ![16, 4106, 512]⟩
abbrev S16x4109x512 : Shape := ⟨3, ![16, 4109, 512]⟩
abbrev S16x4112x512 : Shape := ⟨3, ![16, 4112, 512]⟩

abbrev nBuf : Space → Nat
  | .hbm => 123
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S8x512, .f32⟩
  | .hbm, ⟨2, _⟩ => ⟨S8x512, .f32⟩
  | .hbm, ⟨3, _⟩ => ⟨S_, .i32⟩
  | .hbm, ⟨4, _⟩ => ⟨S_, .f32⟩
  | .hbm, ⟨5, _⟩ => ⟨S16x4097x512, .f32⟩
  | .hbm, ⟨6, _⟩ => ⟨S16x4096x512, .f32⟩
  | .hbm, ⟨7, _⟩ => ⟨S1x512, .f32⟩
  | .hbm, ⟨8, _⟩ => ⟨S512, .f32⟩
  | .hbm, ⟨9, _⟩ => ⟨S1x1x512, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S_, .i32⟩
  | .hbm, ⟨14, _⟩ => ⟨S_, .f32⟩
  | .hbm, ⟨15, _⟩ => ⟨S16x4100x512, .f32⟩
  | .hbm, ⟨16, _⟩ => ⟨S16x4096x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S_, .i32⟩
  | .hbm, ⟨24, _⟩ => ⟨S_, .f32⟩
  | .hbm, ⟨25, _⟩ => ⟨S16x4103x512, .f32⟩
  | .hbm, ⟨26, _⟩ => ⟨S16x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S16x4096x512, .f32⟩
  | .hbm, ⟨31, _⟩ => ⟨S16x4096x512, .f32⟩
  | .hbm, ⟨32, _⟩ => ⟨S16x4096x512, .f32⟩
  | .hbm, ⟨33, _⟩ => ⟨S_, .i32⟩
  | .hbm, ⟨34, _⟩ => ⟨S_, .f32⟩
  | .hbm, ⟨35, _⟩ => ⟨S16x4106x512, .f32⟩
  | .hbm, ⟨36, _⟩ => ⟨S16x4096x512, .f32⟩
  | .hbm, ⟨37, _⟩ => ⟨S1x512, .f32⟩
  | .hbm, ⟨38, _⟩ => ⟨S512, .f32⟩
  | .hbm, ⟨39, _⟩ => ⟨S1x1x512, .f32⟩
  | .hbm, ⟨40, _⟩ => ⟨S16x4096x512, .f32⟩
  | .hbm, ⟨41, _⟩ => ⟨S16x4096x512, .f32⟩
  | .hbm, ⟨42, _⟩ => ⟨S16x4096x512, .f32⟩
  | .hbm, ⟨43, _⟩ => ⟨S_, .i32⟩
  | .hbm, ⟨44, _⟩ => ⟨S_, .f32⟩
  | .hbm, ⟨45, _⟩ => ⟨S16x4109x512, .f32⟩
  | .hbm, ⟨46, _⟩ => ⟨S16x4096x512, .f32⟩
  | .hbm, ⟨47, _⟩ => ⟨S1x512, .f32⟩
  | .hbm, ⟨48, _⟩ => ⟨S512, .f32⟩
  | .hbm, ⟨49, _⟩ => ⟨S1x1x512, .f32⟩
  | .hbm, ⟨50, _⟩ => ⟨S16x4096x512, .f32⟩
  | .hbm, ⟨51, _⟩ => ⟨S16x4096x512, .f32⟩
  | .hbm, ⟨52, _⟩ => ⟨S16x4096x512, .f32⟩
  | .hbm, ⟨53, _⟩ => ⟨S_, .i32⟩
  | .hbm, ⟨54, _⟩ => ⟨S_, .f32⟩
  | .hbm, ⟨55, _⟩ => ⟨S16x4112x512, .f32⟩
  | .hbm, ⟨56, _⟩ => ⟨S16x4096x512, .f32⟩
  | .hbm, ⟨57, _⟩ => ⟨S1x512, .f32⟩
  | .hbm, ⟨58, _⟩ => ⟨S512, .f32⟩
  | .hbm, ⟨59, _⟩ => ⟨S1x1x512, .f32⟩
  | .hbm, ⟨60, _⟩ => ⟨S16x4096x512, .f32⟩
  | .hbm, ⟨61, _⟩ => ⟨S16x4096x512, .f32⟩
  | .hbm, ⟨62, _⟩ => ⟨S16x4096x512, .f32⟩
  | .hbm, ⟨63, _⟩ => ⟨S_, .i32⟩
  | .hbm, ⟨64, _⟩ => ⟨S_, .f32⟩
  | .hbm, ⟨65, _⟩ => ⟨S16x4097x512, .f32⟩
  | .hbm, ⟨66, _⟩ => ⟨S16x4096x512, .f32⟩
  | .hbm, ⟨67, _⟩ => ⟨S1x512, .f32⟩
  | .hbm, ⟨68, _⟩ => ⟨S512, .f32⟩
  | .hbm, ⟨69, _⟩ => ⟨S1x1x512, .f32⟩
  | .hbm, ⟨70, _⟩ => ⟨S16x4096x512, .f32⟩
  | .hbm, ⟨71, _⟩ => ⟨S16x4096x512, .f32⟩
  | .hbm, ⟨72, _⟩ => ⟨S16x4096x512, .f32⟩
  | .hbm, ⟨73, _⟩ => ⟨S_, .i32⟩
  | .hbm, ⟨74, _⟩ => ⟨S_, .f32⟩
  | .hbm, ⟨75, _⟩ => ⟨S16x4100x512, .f32⟩
  | .hbm, ⟨76, _⟩ => ⟨S16x4096x512, .f32⟩
  | .hbm, ⟨77, _⟩ => ⟨S1x512, .f32⟩
  | .hbm, ⟨78, _⟩ => ⟨S512, .f32⟩
  | .hbm, ⟨79, _⟩ => ⟨S1x1x512, .f32⟩
  | .hbm, ⟨80, _⟩ => ⟨S16x4096x512, .f32⟩
  | .hbm, ⟨81, _⟩ => ⟨S16x4096x512, .f32⟩
  | .hbm, ⟨82, _⟩ => ⟨S16x4096x512, .f32⟩
  | .hbm, ⟨83, _⟩ => ⟨S_, .i32⟩
  | .hbm, ⟨84, _⟩ => ⟨S_, .f32⟩
  | .hbm, ⟨85, _⟩ => ⟨S16x4103x512, .f32⟩
  | .hbm, ⟨86, _⟩ => ⟨S16x4096x512, .f32⟩
  | .hbm, ⟨87, _⟩ => ⟨S1x512, .f32⟩
  | .hbm, ⟨88, _⟩ => ⟨S512, .f32⟩
  | .hbm, ⟨89, _⟩ => ⟨S1x1x512, .f32⟩
  | .hbm, ⟨90, _⟩ => ⟨S16x4096x512, .f32⟩
  | .hbm, ⟨91, _⟩ => ⟨S16x4096x512, .f32⟩
  | .hbm, ⟨92, _⟩ => ⟨S16x4096x512, .f32⟩
  | .hbm, ⟨93, _⟩ => ⟨S_, .i32⟩
  | .hbm, ⟨94, _⟩ => ⟨S_, .f32⟩
  | .hbm, ⟨95, _⟩ => ⟨S16x4106x512, .f32⟩
  | .hbm, ⟨96, _⟩ => ⟨S16x4096x512, .f32⟩
  | .hbm, ⟨97, _⟩ => ⟨S1x512, .f32⟩
  | .hbm, ⟨98, _⟩ => ⟨S512, .f32⟩
  | .hbm, ⟨99, _⟩ => ⟨S1x1x512, .f32⟩
  | .hbm, ⟨100, _⟩ => ⟨S16x4096x512, .f32⟩
  | .hbm, ⟨101, _⟩ => ⟨S16x4096x512, .f32⟩
  | .hbm, ⟨102, _⟩ => ⟨S16x4096x512, .f32⟩
  | .hbm, ⟨103, _⟩ => ⟨S_, .i32⟩
  | .hbm, ⟨104, _⟩ => ⟨S_, .f32⟩
  | .hbm, ⟨105, _⟩ => ⟨S16x4109x512, .f32⟩
  | .hbm, ⟨106, _⟩ => ⟨S16x4096x512, .f32⟩
  | .hbm, ⟨107, _⟩ => ⟨S1x512, .f32⟩
  | .hbm, ⟨108, _⟩ => ⟨S512, .f32⟩
  | .hbm, ⟨109, _⟩ => ⟨S1x1x512, .f32⟩
  | .hbm, ⟨110, _⟩ => ⟨S16x4096x512, .f32⟩
  | .hbm, ⟨111, _⟩ => ⟨S16x4096x512, .f32⟩
  | .hbm, ⟨112, _⟩ => ⟨S16x4096x512, .f32⟩
  | .hbm, ⟨113, _⟩ => ⟨S_, .i32⟩
  | .hbm, ⟨114, _⟩ => ⟨S_, .f32⟩
  | .hbm, ⟨115, _⟩ => ⟨S16x4112x512, .f32⟩
  | .hbm, ⟨116, _⟩ => ⟨S16x4096x512, .f32⟩
  | .hbm, ⟨117, _⟩ => ⟨S1x512, .f32⟩
  | .hbm, ⟨118, _⟩ => ⟨S512, .f32⟩
  | .hbm, ⟨119, _⟩ => ⟨S1x1x512, .f32⟩
  | .hbm, ⟨120, _⟩ => ⟨S16x4096x512, .f32⟩
  | .hbm, ⟨121, _⟩ => ⟨S16x4096x512, .f32⟩
  | .hbm, ⟨122, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call3_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_call4_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_call5_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_call6_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_6 : Ref sig .tc := ⟨.hbm, 73, rfl⟩
abbrev main_call7_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_7 : Ref sig .tc := ⟨.hbm, 83, rfl⟩
abbrev main_call8_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_call9_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_9 : Ref sig .tc := ⟨.hbm, 103, rfl⟩
abbrev main_call10_v0 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_10 : Ref sig .tc := ⟨.hbm, 113, rfl⟩
abbrev main_call11_v0 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]

class Facts₀ : Prop where
  pads_S16x4096x512_S16x4097x512_000_100_000 : S16x4096x512.Pads (![0, 1, 0] : Fin 3 → Nat) ![0, 0, 0] ![0, 0, 0] S16x4097x512
  h_S_ : 0 < S_.numel
  slices_S16x4097x512_S16x4096x512_0_0_0 : S16x4097x512.Slices ![0, 0, 0] S16x4096x512
  slices_S8x512_S1x512_7_0 : S8x512.Slices ![7, 0] S1x512
  shapeCasts_S1x512_S512 : S1x512.ShapeCasts S512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  pads_S16x4096x512_S16x4100x512_000_400_000 : S16x4096x512.Pads (![0, 4, 0] : Fin 3 → Nat) ![0, 0, 0] ![0, 0, 0] S16x4100x512
  slices_S16x4100x512_S16x4096x512_0_0_0 : S16x4100x512.Slices ![0, 0, 0] S16x4096x512
  slices_S8x512_S1x512_6_0 : S8x512.Slices ![6, 0] S1x512
  pads_S16x4096x512_S16x4103x512_000_700_000 : S16x4096x512.Pads (![0, 7, 0] : Fin 3 → Nat) ![0, 0, 0] ![0, 0, 0] S16x4103x512
  slices_S16x4103x512_S16x4096x512_0_0_0 : S16x4103x512.Slices ![0, 0, 0] S16x4096x512
  slices_S8x512_S1x512_5_0 : S8x512.Slices ![5, 0] S1x512
  pads_S16x4096x512_S16x4106x512_000_1000_000 : S16x4096x512.Pads (![0, 10, 0] : Fin 3 → Nat) ![0, 0, 0] ![0, 0, 0] S16x4106x512
  slices_S16x4106x512_S16x4096x512_0_0_0 : S16x4106x512.Slices ![0, 0, 0] S16x4096x512
  slices_S8x512_S1x512_4_0 : S8x512.Slices ![4, 0] S1x512
  pads_S16x4096x512_S16x4109x512_000_1300_000 : S16x4096x512.Pads (![0, 13, 0] : Fin 3 → Nat) ![0, 0, 0] ![0, 0, 0] S16x4109x512
  slices_S16x4109x512_S16x4096x512_0_0_0 : S16x4109x512.Slices ![0, 0, 0] S16x4096x512
  slices_S8x512_S1x512_3_0 : S8x512.Slices ![3, 0] S1x512
  pads_S16x4096x512_S16x4112x512_000_1600_000 : S16x4096x512.Pads (![0, 16, 0] : Fin 3 → Nat) ![0, 0, 0] ![0, 0, 0] S16x4112x512
  slices_S16x4112x512_S16x4096x512_0_0_0 : S16x4112x512.Slices ![0, 0, 0] S16x4096x512
  slices_S8x512_S1x512_2_0 : S8x512.Slices ![2, 0] S1x512
  pads_S16x4096x512_S16x4097x512_000_010_000 : S16x4096x512.Pads (![0, 0, 0] : Fin 3 → Nat) ![0, 1, 0] ![0, 0, 0] S16x4097x512
  slices_S16x4097x512_S16x4096x512_0_1_0 : S16x4097x512.Slices ![0, 1, 0] S16x4096x512
  slices_S8x512_S1x512_0_0 : S8x512.Slices ![0, 0] S1x512
  pads_S16x4096x512_S16x4100x512_000_040_000 : S16x4096x512.Pads (![0, 0, 0] : Fin 3 → Nat) ![0, 4, 0] ![0, 0, 0] S16x4100x512
  slices_S16x4100x512_S16x4096x512_0_4_0 : S16x4100x512.Slices ![0, 4, 0] S16x4096x512
  slices_S8x512_S1x512_1_0 : S8x512.Slices ![1, 0] S1x512
  pads_S16x4096x512_S16x4103x512_000_070_000 : S16x4096x512.Pads (![0, 0, 0] : Fin 3 → Nat) ![0, 7, 0] ![0, 0, 0] S16x4103x512
  slices_S16x4103x512_S16x4096x512_0_7_0 : S16x4103x512.Slices ![0, 7, 0] S16x4096x512
  pads_S16x4096x512_S16x4106x512_000_0100_000 : S16x4096x512.Pads (![0, 0, 0] : Fin 3 → Nat) ![0, 10, 0] ![0, 0, 0] S16x4106x512
  slices_S16x4106x512_S16x4096x512_0_10_0 : S16x4106x512.Slices ![0, 10, 0] S16x4096x512
  pads_S16x4096x512_S16x4109x512_000_0130_000 : S16x4096x512.Pads (![0, 0, 0] : Fin 3 → Nat) ![0, 13, 0] ![0, 0, 0] S16x4109x512
  slices_S16x4109x512_S16x4096x512_0_13_0 : S16x4109x512.Slices ![0, 13, 0] S16x4096x512
  pads_S16x4096x512_S16x4112x512_000_0160_000 : S16x4096x512.Pads (![0, 0, 0] : Fin 3 → Nat) ![0, 16, 0] ![0, 0, 0] S16x4112x512
  slices_S16x4112x512_S16x4096x512_0_16_0 : S16x4112x512.Slices ![0, 16, 0] S16x4096x512

variable [Facts₀]

class Facts : Prop extends Facts₀ where

variable [Facts]
-- ==== Proof.LibShiftRows.lean ====
/-
  ROWS OF A RANK-3 ARRAY SHIFTED ALONG ITS MIDDLE AXIS, read at an index.

  An array X of shape [A, N, D] is a batch of A signals of N rows of D lanes. Extending each signal by a padding
  value z to every integer row (rowOr z X b d n is X[b, n, d] for 0 ≤ n < N and z for every other integer n) makes
  a shift of the rows one formula with no case split at the ends: row r of the signal delayed by j is row r − j of
  the extension, row r of the signal advanced by j is row r + j.

  Both spellings of such a shift are read here to that formula.
  * A host program delays by j by padding j rows of z in front and keeping the first N rows (pad_front_rows), and
    advances by j by padding j rows behind and keeping the last N rows (pad_back_rows).
  * A kernel that holds the whole signal in one [n, D] matrix rotates it along the rows by j and overwrites the
    rows that came around the end, rows below j, with z (rot_mask_low); to advance by j it rotates by n − j and
    overwrites the rows from n − j on (rot_mask_high). A kernel that holds only a window of n rows from row k of a
    longer signal reads the shifted window directly: the load of n rows from row k ± j (idx_rows).
  Beside them the small layout steps both spellings make around a shift: one row k of a [R, D] table laid along
  every row of a matrix (idx_row, vec_of_row, rows_of_vec on the kernel's side; ref_row_bcast on the host's), and a
  unit leading axis dropped or added (drop_unit, add_unit).
-/
import Idealize.ShloMosaic.Lib.KernelVsHost

noncomputable section

namespace Cert.LibShiftRows

open Idealize.ShloMosaic Idealize.ShloMosaic.ValueIdx

variable {α : Type} {A N D : Nat}

/-! ## A signal extended to every integer row -/

/-- Entry (b, n, d) of X for ANY integer row n: the padding value z where n is not a row of X. -/
def rowOr (z : α) (X : (⟨3, ![A, N, D]⟩ : Shape).Idx → α) (b : Fin A) (d : Fin D) (n : ℤ) : α :=
  if h : 0 ≤ n ∧ n < (N : ℤ) then X (ix3 b ⟨n.toNat, by omega⟩ d) else z

/-- On a row of X the extension is X. -/
theorem rowOr_nat (z : α) (X : (⟨3, ![A, N, D]⟩ : Shape).Idx → α) (b : Fin A) (d : Fin D) (n : Nat) (h : n < N) :
    X (ix3 b ⟨n, h⟩ d) = rowOr z X b d (n : ℤ) := by
  unfold rowOr
  rw [dif_pos ⟨by omega, by omega⟩]
  rfl

/-- Before the first row it is the padding value. -/
theorem rowOr_of_neg (z : α) (X : (⟨3, ![A, N, D]⟩ : Shape).Idx → α) (b : Fin A) (d : Fin D) (n : ℤ) (h : n < 0) :
    rowOr z X b d n = z := by
  unfold rowOr; rw [dif_neg (by omega)]

/-- After the last row it is the padding value. -/
theorem rowOr_of_ge (z : α) (X : (⟨3, ![A, N, D]⟩ : Shape).Idx → α) (b : Fin A) (d : Fin D) (n : ℤ) (h : (N : ℤ) ≤ n) :
    rowOr z X b d n = z := by
  unfold rowOr; rw [dif_neg (by omega)]

/-- The same row, written another way. -/
theorem rowOr_congr (z : α) (X : (⟨3, ![A, N, D]⟩ : Shape).Idx → α) (b : Fin A) (d : Fin D) {n n' : ℤ} (h : n = n') :
    rowOr z X b d n = rowOr z X b d n' := by rw [h]

/-! ## Where a window of rows, and one row of a table, sit in their arrays -/

/-- Local index (b, p, d) of the window of n rows from row k is index (b, k + p, d) of the array: what a load of
    n rows from row k (all batches, all lanes) reads at (b, p, d). -/
theorem idx_rows (k n : Nat)
    (inb : ∀ a, (![0, k, 0] : Fin 3 → Nat) a + (⟨3, ![A, n, D]⟩ : Shape).size a ≤ (⟨3, ![A, N, D]⟩ : Shape).size a)
    (b : Fin A) (p : Fin n) (d : Fin D) :
    (Rect.unit (s := ⟨3, ![A, N, D]⟩) ![0, k, 0] (⟨3, ![A, n, D]⟩ : Shape).size inb).toLoadRect.idx (ix3 b p d)
      = ix3 b (⟨k + p.val, by have hk : k + n ≤ N := inb 1; have := p.isLt; omega⟩ : Fin N) d := by
  funext a
  apply Fin.ext
  match a with
  | ⟨0, _⟩ => show 0 + 1 * b.val = b.val; omega
  | ⟨1, _⟩ => show k + 1 * p.val = k + p.val; omega
  | ⟨2, _⟩ => show 0 + 1 * d.val = d.val; omega

/-- The same index as a store's rectangle names it. -/
theorem emb_rows (k n : Nat)
    (inb : ∀ a, (![0, k, 0] : Fin 3 → Nat) a + (⟨3, ![A, n, D]⟩ : Shape).size a ≤ (⟨3, ![A, N, D]⟩ : Shape).size a)
    (b : Fin A) (p : Fin n) (d : Fin D) :
    (Rect.unit (s := ⟨3, ![A, N, D]⟩) ![0, k, 0] (⟨3, ![A, n, D]⟩ : Shape).size inb).emb (ix3 b p d)
      = ix3 b (⟨k + p.val, by have hk : k + n ≤ N := inb 1; have := p.isLt; omega⟩ : Fin N) d :=
  idx_rows k n inb b p d

/-- Local index (0, d) of the one-row window at row k of a table [R, D] is index (k, d) of the table. -/
theorem idx_row {R : Nat} (k : Nat)
    (inb : ∀ a, (![k, 0] : Fin 2 → Nat) a + (⟨2, ![1, D]⟩ : Shape).size a ≤ (⟨2, ![R, D]⟩ : Shape).size a)
    (i : Fin 1) (d : Fin D) :
    (Rect.unit (s := ⟨2, ![R, D]⟩) ![k, 0] (⟨2, ![1, D]⟩ : Shape).size inb).toLoadRect.idx (ix2 i d)
      = ix2 (⟨k, by have h : k + 1 ≤ R := inb 0; omega⟩ : Fin R) d := by
  have hi : i.val = 0 := by have := i.isLt; omega
  funext a
  apply Fin.ext
  match a with
  | ⟨0, _⟩ => show k + 1 * i.val = k; omega
  | ⟨1, _⟩ => show 0 + 1 * d.val = d.val; omega

/-! ## A unit leading axis dropped or added; one row laid along every row -/

/-- A [1, n, D] block viewed [n, D] reads (0, p, d) at (p, d). -/
theorem drop_unit {n : Nat} (x : (⟨3, ![1, n, D]⟩ : Shape).Idx → α)
    (h : (⟨3, ![1, n, D]⟩ : Shape).ShapeCasts ⟨2, ![n, D]⟩) (p : Fin n) (d : Fin D) :
    shapeCast ⟨2, ![n, D]⟩ x h (ix2 p d) = x (ix3 (0 : Fin 1) p d) :=
  shapeCast_apply x h (ix2 p d) (ix3 (0 : Fin 1) p d) (by
    rw [Shape.rowMajor_val_three, Shape.rowMajor_val_two]
    show (0 * n + p.val) * D + d.val = p.val * D + d.val
    rw [Nat.zero_mul, Nat.zero_add])

/-- An [n, D] matrix viewed [1, n, D] reads (p, d) at (0, p, d). -/
theorem add_unit {n : Nat} (y : (⟨2, ![n, D]⟩ : Shape).Idx → α)
    (h : (⟨2, ![n, D]⟩ : Shape).ShapeCasts ⟨3, ![1, n, D]⟩) (i : Fin 1) (p : Fin n) (d : Fin D) :
    shapeCast ⟨3, ![1, n, D]⟩ y h (ix3 i p d) = y (ix2 p d) :=
  shapeCast_apply y h (ix3 i p d) (ix2 p d) (by
    have hi : i.val = 0 := by have := i.isLt; omega
    rw [Shape.rowMajor_val_three, Shape.rowMajor_val_two]
    show p.val * D + d.val = (i.val * n + p.val) * D + d.val
    rw [hi, Nat.zero_mul, Nat.zero_add])

/-- A one-row matrix [1, D] viewed as a vector [D] reads (0, d) at d. -/
theorem vec_of_row (w : (⟨2, ![1, D]⟩ : Shape).Idx → α)
    (h : (⟨2, ![1, D]⟩ : Shape).ShapeCasts ⟨1, ![D]⟩) (d : Fin D) :
    shapeCast ⟨1, ![D]⟩ w h (ix1 d) = w (ix2 (0 : Fin 1) d) :=
  shapeCast_apply w h (ix1 d) (ix2 (0 : Fin 1) d) (by
    rw [Shape.rowMajor_val_two, Shape.rowMajor_val_one]
    show 0 * D + d.val = d.val
    rw [Nat.zero_mul, Nat.zero_add])

/-- A vector [D] viewed as one row and laid along every row of an [n, D] matrix reads d at (p, d). -/
theorem rows_of_vec {n : Nat} (u : (⟨1, ![D]⟩ : Shape).Idx → α)
    (h : (⟨1, ![D]⟩ : Shape).ShapeCasts ⟨2, ![1, D]⟩) (hb : (⟨2, ![1, D]⟩ : Shape).Broadcasts ⟨2, ![n, D]⟩)
    (p : Fin n) (d : Fin D) :
    broadcastTo ⟨2, ![n, D]⟩ (shapeCast ⟨2, ![1, D]⟩ u h) hb (ix2 p d) = u (ix1 d) := by
  by_cases hD : D = 1
  · subst hD
    have hd : d = 0 := Subsingleton.elim _ _
    subst hd
    refine (broadcastTo_apply _ hb (ix2 p (0 : Fin 1)) (ix2 (0 : Fin 1) (0 : Fin 1)) (fun a => ?_)).trans ?_
    · match a with
      | ⟨0, _⟩ => rfl
      | ⟨1, _⟩ => rfl
    · exact shapeCast_apply u h (ix2 (0 : Fin 1) (0 : Fin 1)) (ix1 (0 : Fin 1)) (by
        rw [Shape.rowMajor_val_two, Shape.rowMajor_val_one]; rfl)
  · refine (broadcastTo_apply _ hb (ix2 p d) (ix2 (0 : Fin 1) d) (fun a => ?_)).trans ?_
    · match a with
      | ⟨0, _⟩ => rfl
      | ⟨1, _⟩ =>
        show d.val = if D = 1 then 0 else d.val
        rw [if_neg hD]
    · exact shapeCast_apply u h (ix2 (0 : Fin 1) d) (ix1 d) (by
        rw [Shape.rowMajor_val_two, Shape.rowMajor_val_one]
        show d.val = 0 * D + d.val
        rw [Nat.zero_mul, Nat.zero_add])

/-! ## A kernel's shift of a whole signal held in one matrix: rotate the rows, overwrite what came around -/

/-- Row numbers and shift amounts are far below 2³¹, so the signed comparison of their 32-bit words is the
    comparison of the numbers: "at least". -/
theorem sge_word (p j : Nat) (hp : p < 2147483648) (hj : j < 2147483648) :
    IntOp.cmpi .sge (BitVec.ofNat 32 p) (BitVec.ofNat 32 j) = if j ≤ p then 1#1 else 0#1 := by
  have tp : (BitVec.ofNat 32 p).toInt = (p : ℤ) := by
    rw [BitVec.toInt_eq_toNat_of_lt (by rw [BitVec.toNat_ofNat]; omega), BitVec.toNat_ofNat]; omega
  have tj : (BitVec.ofNat 32 j).toInt = (j : ℤ) := by
    rw [BitVec.toInt_eq_toNat_of_lt (by rw [BitVec.toNat_ofNat]; omega), BitVec.toNat_ofNat]; omega
  show BitVec.ofBool ((BitVec.ofNat 32 j).sle (BitVec.ofNat 32 p)) = _
  rw [BitVec.sle_eq_decide, tp, tj]
  by_cases h : j ≤ p
  · rw [if_pos h, decide_eq_true (by omega)]; rfl
  · rw [if_neg h, decide_eq_false (by omega)]; rfl

/-- The same for "less than". -/
theorem slt_word (p s : Nat) (hp : p < 2147483648) (hs : s < 2147483648) :
    IntOp.cmpi .slt (BitVec.ofNat 32 p) (BitVec.ofNat 32 s) = if p < s then 1#1 else 0#1 := by
  have tp : (BitVec.ofNat 32 p).toInt = (p : ℤ) := by
    rw [BitVec.toInt_eq_toNat_of_lt (by rw [BitVec.toNat_ofNat]; omega), BitVec.toNat_ofNat]; omega
  have ts : (BitVec.ofNat 32 s).toInt = (s : ℤ) := by
    rw [BitVec.toInt_eq_toNat_of_lt (by rw [BitVec.toNat_ofNat]; omega), BitVec.toNat_ofNat]; omega
  show BitVec.ofBool ((BitVec.ofNat 32 p).slt (BitVec.ofNat 32 s)) = _
  rw [BitVec.slt_eq_decide, tp, ts]
  by_cases h : p < s
  · rw [if_pos h, decide_eq_true (by omega)]; rfl
  · rw [if_neg h, decide_eq_false (by omega)]; rfl

/-- DELAY BY j: the rows of an [n, D] matrix rotated down by j, the rows below j (which the rotation brought around
    from the end) overwritten with z: row p of the result is row p − j of the matrix from row j on, z before. -/
theorem rot_mask_low {κ : Kind} {n : Nat} (j : Nat) (hj : j < n) (hn : n < 2147483648)
    (y : (⟨2, ![n, D]⟩ : Shape).Idx → α) (z : α)
    (hI : (⟨2, ![n, D]⟩ : Shape).Iotas κ 32 [0]) (hR : (⟨2, ![n, D]⟩ : Shape).Rotates 0 none)
    (p : Fin n) (d : Fin D) :
    select (cmpi .sge (iota κ ⟨2, ![n, D]⟩ 32 [0] hI) (broadcast ⟨2, ![n, D]⟩ (BitVec.ofNat 32 j)))
        (dynamicRotate 0 (BitVec.ofNat 32 j) none y hR) (broadcast ⟨2, ![n, D]⟩ z) (ix2 p d)
      = if h : j ≤ p.val then y (ix2 ⟨p.val - j, by omega⟩ d) else z := by
  have hp : p.val < n := p.isLt
  show Scalar.select (IntOp.cmpi .sge (iota κ ⟨2, ![n, D]⟩ 32 [0] hI (ix2 p d)) (BitVec.ofNat 32 j))
      (dynamicRotate 0 (BitVec.ofNat 32 j) none y hR (ix2 p d)) z = _
  rw [iota_single_apply, show ((ix2 p d : (⟨2, ![n, D]⟩ : Shape).Idx) 0).val = p.val from rfl,
    sge_word p.val j (by omega) (by omega)]
  by_cases h : j ≤ p.val
  · rw [if_pos h, dif_pos h, select_one]
    exact dynamicRotate_apply 0 _ y hR (ix2 p d) (ix2 ⟨p.val - j, by omega⟩ d) (fun b => by
      match b with
      | ⟨0, _⟩ =>
        show p.val - j = if (0 : Fin 2) = 0 then (p.val + n - (BitVec.ofNat 32 j).toNat % n) % n else p.val
        rw [if_pos rfl, BitVec.toNat_ofNat, Nat.mod_eq_of_lt (show j < 2 ^ 32 by omega), Nat.mod_eq_of_lt hj,
          show p.val + n - j = (p.val - j) + n by omega, Nat.add_mod_right, Nat.mod_eq_of_lt (by omega)]
      | ⟨1, _⟩ =>
        show d.val = if (1 : Fin 2) = 0 then _ else d.val
        rw [if_neg (by decide)])
  · rw [if_neg h, dif_neg h, select_zero]

/-- ADVANCE BY n − s: the rows rotated down by s, the rows from s on overwritten with z: row p of the result is row
    p + (n − s) of the matrix below row s, z from there on. -/
theorem rot_mask_high {κ : Kind} {n : Nat} (s : Nat) (hs : s < n) (hn : n < 2147483648)
    (y : (⟨2, ![n, D]⟩ : Shape).Idx → α) (z : α)
    (hI : (⟨2, ![n, D]⟩ : Shape).Iotas κ 32 [0]) (hR : (⟨2, ![n, D]⟩ : Shape).Rotates 0 none)
    (p : Fin n) (d : Fin D) :
    select (cmpi .slt (iota κ ⟨2, ![n, D]⟩ 32 [0] hI) (broadcast ⟨2, ![n, D]⟩ (BitVec.ofNat 32 s)))
        (dynamicRotate 0 (BitVec.ofNat 32 s) none y hR) (broadcast ⟨2, ![n, D]⟩ z) (ix2 p d)
      = if h : p.val < s then y (ix2 ⟨p.val + (n - s), by omega⟩ d) else z := by
  have hp : p.val < n := p.isLt
  show Scalar.select (IntOp.cmpi .slt (iota κ ⟨2, ![n, D]⟩ 32 [0] hI (ix2 p d)) (BitVec.ofNat 32 s))
      (dynamicRotate 0 (BitVec.ofNat 32 s) none y hR (ix2 p d)) z = _
  rw [iota_single_apply, show ((ix2 p d : (⟨2, ![n, D]⟩ : Shape).Idx) 0).val = p.val from rfl,
    slt_word p.val s (by omega) (by omega)]
  by_cases h : p.val < s
  · rw [if_pos h, dif_pos h, select_one]
    exact dynamicRotate_apply 0 _ y hR (ix2 p d) (ix2 ⟨p.val + (n - s), by omega⟩ d) (fun b => by
      match b with
      | ⟨0, _⟩ =>
        show p.val + (n - s) = if (0 : Fin 2) = 0 then (p.val + n - (BitVec.ofNat 32 s).toNat % n) % n else p.val
        rw [if_pos rfl, BitVec.toNat_ofNat, Nat.mod_eq_of_lt (show s < 2 ^ 32 by omega), Nat.mod_eq_of_lt hs,
          Nat.mod_eq_of_lt (by omega)]
        omega
      | ⟨1, _⟩ =>
        show d.val = if (1 : Fin 2) = 0 then _ else d.val
        rw [if_neg (by decide)])
  · rw [if_neg h, dif_neg h, select_zero]

/-! ## A host program's shift: pad on one side, keep N rows from the other -/

/-- Row k of a table [R, D], cut out, flattened and laid along every row of every batch of an [A, N, D] array,
    reads (k, d) at (b, r, d). -/
theorem ref_row_bcast {R : Nat} (W : (⟨2, ![R, D]⟩ : Shape).Idx → α) (k : Nat)
    (hs : (⟨2, ![R, D]⟩ : Shape).Slices ![k, 0] ⟨2, ![1, D]⟩)
    (hc : (⟨2, ![1, D]⟩ : Shape).ShapeCasts ⟨1, ![D]⟩)
    (h1 : (⟨1, ![D]⟩ : Shape).BroadcastsInDim ⟨3, ![1, 1, D]⟩ ![2])
    (h2 : (⟨3, ![1, 1, D]⟩ : Shape).BroadcastsInDim ⟨3, ![A, N, D]⟩ ![0, 1, 2])
    (b : Fin A) (r : Fin N) (d : Fin D) :
    broadcastInDim ⟨3, ![A, N, D]⟩ ![0, 1, 2] h2
        (broadcastInDim ⟨3, ![1, 1, D]⟩ ![2] h1
          (shapeCast ⟨1, ![D]⟩ (extractStridedSlice ⟨2, ![1, D]⟩ ![k, 0] W hs) hc)) (ix3 b r d)
      = W (ix2 ⟨k, by have h : k + 1 ≤ R := hs.2 0; omega⟩ d) := by
  have hd : d.val < D := d.isLt
  refine (broadcastInDim_apply _ h2 _ (ix3 b r d) (ix3 (0 : Fin 1) (0 : Fin 1) d) (fun a => ?_)).trans ?_
  · match a with
    | ⟨0, _⟩ => rfl
    | ⟨1, _⟩ => rfl
    | ⟨2, _⟩ =>
      show d.val = if D = 1 then 0 else d.val
      split
      · omega
      · rfl
  refine (broadcastInDim_apply _ h1 _ (ix3 (0 : Fin 1) (0 : Fin 1) d) (ix1 d) (fun a => ?_)).trans ?_
  · match a with
    | ⟨0, _⟩ =>
      show d.val = if D = 1 then 0 else d.val
      split
      · omega
      · rfl
  refine (vec_of_row _ hc d).trans ?_
  exact extractStridedSlice_apply _ W hs (ix2 (0 : Fin 1) d) _ (fun a => by
    match a with
    | ⟨0, _⟩ => show k = k + 0; omega
    | ⟨1, _⟩ => show d.val = 0 + d.val; omega)

/-- DELAY BY j on the host: j rows of the padding value in front, the first N rows kept. -/
theorem pad_front_rows {M : Nat} (j : Nat) (X : (⟨3, ![A, N, D]⟩ : Shape).Idx → α) {u : Shape} (v : u.Idx → α)
    (hp : (⟨3, ![A, N, D]⟩ : Shape).Pads (![0, j, 0] : Fin 3 → Nat) ![0, 0, 0] ![0, 0, 0] ⟨3, ![A, M, D]⟩)
    (hu : 0 < u.numel) (hs : (⟨3, ![A, M, D]⟩ : Shape).Slices ![0, 0, 0] ⟨3, ![A, N, D]⟩)
    (b : Fin A) (r : Fin N) (d : Fin D) :
    extractStridedSlice ⟨3, ![A, N, D]⟩ ![0, 0, 0]
        (pad ⟨3, ![A, M, D]⟩ ![0, j, 0] ![0, 0, 0] ![0, 0, 0] X v hp hu) hs (ix3 b r d)
      = rowOr (v (Shape.Idx.first hu)) X b d ((r.val : ℤ) - (j : ℤ)) := by
  have hr : r.val < N := r.isLt
  have hM : M = j + N + 0 * (N - 1) + 0 := hp.2 1
  refine (extractStridedSlice_apply _ _ hs (ix3 b r d) (ix3 b (⟨r.val, by omega⟩ : Fin M) d) (fun a => by
    match a with
    | ⟨0, _⟩ => show b.val = 0 + b.val; omega
    | ⟨1, _⟩ => show r.val = 0 + r.val; omega
    | ⟨2, _⟩ => show d.val = 0 + d.val; omega)).trans ?_
  by_cases h : j ≤ r.val
  · rw [show ((r.val : ℤ) - (j : ℤ)) = ((r.val - j : Nat) : ℤ) by omega,
      ← rowOr_nat _ X b d (r.val - j) (by omega)]
    exact pad_apply_of_inside _ _ _ X v hp hu _ (ix3 b (⟨r.val - j, by omega⟩ : Fin N) d) (fun a => by
      match a with
      | ⟨0, _⟩ => show b.val = 0 + b.val * (0 + 1); omega
      | ⟨1, _⟩ => show r.val = j + (r.val - j) * (0 + 1); omega
      | ⟨2, _⟩ => show d.val = 0 + d.val * (0 + 1); omega)
  · rw [rowOr_of_neg _ X b d _ (by omega)]
    exact pad_apply_of_not_inside _ _ _ X v hp hu _ (1 : Fin 3) (fun hin => h hin.1)

/-- ADVANCE BY j on the host: j rows of the padding value behind, the last N rows kept. -/
theorem pad_back_rows {M : Nat} (j : Nat) (X : (⟨3, ![A, N, D]⟩ : Shape).Idx → α) {u : Shape} (v : u.Idx → α)
    (hp : (⟨3, ![A, N, D]⟩ : Shape).Pads (![0, 0, 0] : Fin 3 → Nat) ![0, j, 0] ![0, 0, 0] ⟨3, ![A, M, D]⟩)
    (hu : 0 < u.numel) (hs : (⟨3, ![A, M, D]⟩ : Shape).Slices ![0, j, 0] ⟨3, ![A, N, D]⟩)
    (b : Fin A) (r : Fin N) (d : Fin D) :
    extractStridedSlice ⟨3, ![A, N, D]⟩ ![0, j, 0]
        (pad ⟨3, ![A, M, D]⟩ ![0, 0, 0] ![0, j, 0] ![0, 0, 0] X v hp hu) hs (ix3 b r d)
      = rowOr (v (Shape.Idx.first hu)) X b d ((r.val : ℤ) + (j : ℤ)) := by
  have hr : r.val < N := r.isLt
  have hM : M = 0 + N + 0 * (N - 1) + j := hp.2 1
  refine (extractStridedSlice_apply _ _ hs (ix3 b r d) (ix3 b (⟨j + r.val, by omega⟩ : Fin M) d) (fun a => by
    match a with
    | ⟨0, _⟩ => show b.val = 0 + b.val; omega
    | ⟨1, _⟩ => rfl
    | ⟨2, _⟩ => show d.val = 0 + d.val; omega)).trans ?_
  by_cases h : r.val + j < N
  · rw [show ((r.val : ℤ) + (j : ℤ)) = ((r.val + j : Nat) : ℤ) by omega,
      ← rowOr_nat _ X b d (r.val + j) h]
    exact pad_apply_of_inside _ _ _ X v hp hu _ (ix3 b (⟨r.val + j, h⟩ : Fin N) d) (fun a => by
      match a with
      | ⟨0, _⟩ => show b.val = 0 + b.val * (0 + 1); omega
      | ⟨1, _⟩ => show j + r.val = 0 + (r.val + j) * (0 + 1); omega
      | ⟨2, _⟩ => show d.val = 0 + d.val * (0 + 1); omega)
  · rw [rowOr_of_ge _ X b d _ (by omega)]
    exact pad_apply_of_not_inside _ _ _ X v hp hu _ (1 : Fin 3) (fun hin => h (by
      have h3 : (j + r.val - 0) / (0 + 1) < N := hin.2.2
      omega))

/-! ## An entry of the array met where the extension is expected -/

/-- Entry (b, n, d) is the extension at any integer spelling n' of row n. -/
theorem rowOr_eq_of_nat (z : α) (X : (⟨3, ![A, N, D]⟩ : Shape).Idx → α) (b : Fin A) (d : Fin D) (n : Nat) (h : n < N)
    (n' : ℤ) (e : (n : ℤ) = n') : X (ix3 b ⟨n, h⟩ d) = rowOr z X b d n' := by
  rw [← e]; exact rowOr_nat z X b d n h

/-- "Entry (b, f, d) where the condition holds, the padding value where it fails" is the extension at row n', when
    the condition holding makes f the row n' and the condition failing puts n' before the first row. -/
theorem dite_rowOr_low (z : α) (X : (⟨3, ![A, N, D]⟩ : Shape).Idx → α) (b : Fin A) (d : Fin D) (c : Prop) [Decidable c]
    (f : c → Nat) (hf : ∀ h : c, f h < N) (n' : ℤ) (h1 : ∀ h : c, ((f h : Nat) : ℤ) = n') (h2 : ¬c → n' < 0) :
    (if h : c then X (ix3 b ⟨f h, hf h⟩ d) else z) = rowOr z X b d n' := by
  by_cases h : c
  · rw [dif_pos h]; exact rowOr_eq_of_nat z X b d (f h) (hf h) n' (h1 h)
  · rw [dif_neg h, rowOr_of_neg z X b d n' (h2 h)]

/-- The same when the condition failing puts n' after the last row. -/
theorem dite_rowOr_high (z : α) (X : (⟨3, ![A, N, D]⟩ : Shape).Idx → α) (b : Fin A) (d : Fin D) (c : Prop) [Decidable c]
    (f : c → Nat) (hf : ∀ h : c, f h < N) (n' : ℤ) (h1 : ∀ h : c, ((f h : Nat) : ℤ) = n') (h2 : ¬c → (N : ℤ) ≤ n') :
    (if h : c then X (ix3 b ⟨f h, hf h⟩ d) else z) = rowOr z X b d n' := by
  by_cases h : c
  · rw [dif_pos h]; exact rowOr_eq_of_nat z X b d (f h) (hf h) n' (h1 h)
  · rw [dif_neg h, rowOr_of_ge z X b d n' (h2 h)]

end Cert.LibShiftRows

end
-- ==== Proof.Band.lean ====
/-
  THE BANDED FILTER both programs compute, as one function of the three argument arrays.

  P is a batch of signals [A, N, D]; memL and memR are tables of D-lane weight rows. Entry (b, r, d) of the result is

      P[b, r, d]  +  Σ over the six delays j ∈ {1, 4, 7, 10, 13, 16}  memL[ρ(j), d] · P[b, r − j, d]
                  +  Σ over the six advances j ∈ {1, 4, 7, 10, 13, 16}  memR[σ(j), d] · P[b, r + j, d]

  with P read as zero outside its rows 0 … N − 1 (rowOr 0), the delays taking rows ρ = 7, 6, 5, 4, 3, 2 of memL and
  the advances rows σ = 0, 1, 2, 3, 4, 5 of memR, and the thirteen terms added in exactly this order, from the
  left. The order matters to neither program's value here, since both add in this same order: no law of the
  extended reals is needed to join them, and the finiteness of the inputs is never used.
-/
import proofs.«130864_j90013924590022_2_alg».proof.Proof.LibShiftRows

noncomputable section

namespace Cert.Band

open Idealize.ShloMosaic Idealize.ShloMosaic.ValueIdx Cert.LibShiftRows

variable {A N D : Nat}

/-- The banded filter, index by index. -/
def band (P : (⟨3, ![A, N, D]⟩ : Shape).Idx → EReal) (memL memR : (⟨2, ![8, D]⟩ : Shape).Idx → EReal) :
    (⟨3, ![A, N, D]⟩ : Shape).Idx → EReal := fun i =>
  P i
    + memL (ix2 7 (i 2)) * rowOr 0 P (i 0) (i 2) (((i 1).val : ℤ) - 1)
    + memL (ix2 6 (i 2)) * rowOr 0 P (i 0) (i 2) (((i 1).val : ℤ) - 4)
    + memL (ix2 5 (i 2)) * rowOr 0 P (i 0) (i 2) (((i 1).val : ℤ) - 7)
    + memL (ix2 4 (i 2)) * rowOr 0 P (i 0) (i 2) (((i 1).val : ℤ) - 10)
    + memL (ix2 3 (i 2)) * rowOr 0 P (i 0) (i 2) (((i 1).val : ℤ) - 13)
    + memL (ix2 2 (i 2)) * rowOr 0 P (i 0) (i 2) (((i 1).val : ℤ) - 16)
    + memR (ix2 0 (i 2)) * rowOr 0 P (i 0) (i 2) (((i 1).val : ℤ) + 1)
    + memR (ix2 1 (i 2)) * rowOr 0 P (i 0) (i 2) (((i 1).val : ℤ) + 4)
    + memR (ix2 2 (i 2)) * rowOr 0 P (i 0) (i 2) (((i 1).val : ℤ) + 7)
    + memR (ix2 3 (i 2)) * rowOr 0 P (i 0) (i 2) (((i 1).val : ℤ) + 10)
    + memR (ix2 4 (i 2)) * rowOr 0 P (i 0) (i 2) (((i 1).val : ℤ) + 13)
    + memR (ix2 5 (i 2)) * rowOr 0 P (i 0) (i 2) (((i 1).val : ℤ) + 16)

/-- The filter at the index with coordinates (b, r, d). -/
theorem band_apply (P : (⟨3, ![A, N, D]⟩ : Shape).Idx → EReal) (memL memR : (⟨2, ![8, D]⟩ : Shape).Idx → EReal)
    (b : Fin A) (r : Fin N) (d : Fin D) :
    band P memL memR (ix3 b r d)
      = P (ix3 b r d)
        + memL (ix2 7 d) * rowOr 0 P b d ((r.val : ℤ) - 1)
        + memL (ix2 6 d) * rowOr 0 P b d ((r.val : ℤ) - 4)
        + memL (ix2 5 d) * rowOr 0 P b d ((r.val : ℤ) - 7)
        + memL (ix2 4 d) * rowOr 0 P b d ((r.val : ℤ) - 10)
        + memL (ix2 3 d) * rowOr 0 P b d ((r.val : ℤ) - 13)
        + memL (ix2 2 d) * rowOr 0 P b d ((r.val : ℤ) - 16)
        + memR (ix2 0 d) * rowOr 0 P b d ((r.val : ℤ) + 1)
        + memR (ix2 1 d) * rowOr 0 P b d ((r.val : ℤ) + 4)
        + memR (ix2 2 d) * rowOr 0 P b d ((r.val : ℤ) + 7)
        + memR (ix2 3 d) * rowOr 0 P b d ((r.val : ℤ) + 10)
        + memR (ix2 4 d) * rowOr 0 P b d ((r.val : ℤ) + 13)
        + memR (ix2 5 d) * rowOr 0 P b d ((r.val : ℤ) + 16) := rfl

/-- The same with the centre term, too, read through the extension. -/
theorem band_apply_ext (P : (⟨3, ![A, N, D]⟩ : Shape).Idx → EReal) (memL memR : (⟨2, ![8, D]⟩ : Shape).Idx → EReal)
    (b : Fin A) (r : Fin N) (d : Fin D) :
    band P memL memR (ix3 b r d)
      = rowOr 0 P b d (r.val : ℤ)
        + memL (ix2 7 d) * rowOr 0 P b d ((r.val : ℤ) - 1)
        + memL (ix2 6 d) * rowOr 0 P b d ((r.val : ℤ) - 4)
        + memL (ix2 5 d) * rowOr 0 P b d ((r.val : ℤ) - 7)
        + memL (ix2 4 d) * rowOr 0 P b d ((r.val : ℤ) - 10)
        + memL (ix2 3 d) * rowOr 0 P b d ((r.val : ℤ) - 13)
        + memL (ix2 2 d) * rowOr 0 P b d ((r.val : ℤ) - 16)
        + memR (ix2 0 d) * rowOr 0 P b d ((r.val : ℤ) + 1)
        + memR (ix2 1 d) * rowOr 0 P b d ((r.val : ℤ) + 4)
        + memR (ix2 2 d) * rowOr 0 P b d ((r.val : ℤ) + 7)
        + memR (ix2 3 d) * rowOr 0 P b d ((r.val : ℤ) + 10)
        + memR (ix2 4 d) * rowOr 0 P b d ((r.val : ℤ) + 13)
        + memR (ix2 5 d) * rowOr 0 P b d ((r.val : ℤ) + 16) := by
  rw [band_apply, show P (ix3 b r d) = rowOr 0 P b d (r.val : ℤ) from rowOr_nat 0 P b d r.val r.isLt]

/-- The zero a kernel writes where a shifted row does not exist: the float word 0x00000000 is the real 0. -/
theorem zero_word : (Scalar.ofBits .f32 0x00000000#32 : Ideal .f32) = 0 := Ideal.ofBits_zero_f32

end Cert.Band

end
-- ==== Proof.ChunksLow.lean ====
/-
  THE KERNEL'S BODY, 512 ROWS AT A TIME (rows 0 … 2047).

  For one batch the kernel holds the whole signal x0 : [1, 4096, 512] and both weight tables x1, x2 : [8, 512], and
  writes the result in eight stores of 512 rows each. The value it stores for rows 512·c … 512·c + 511 starts from
  those rows of x0 and adds, in the filter's order, weight row × shifted window, twelve times; every weight row is
  one row of a table, loaded as [1, 512], flattened, and laid along the 512 rows of the window. Each theorem here
  reads one store's value at local index (0, p, q) and finds the filter of (x0, x1, x2) at row 512·c + p: term by
  term the two sums have the same weight and the same entry of the signal extended by zero.
-/
import proofs.«130864_j90013924590022_2_alg».proof.Proof.Gen.KernelIdeal.Frame
import proofs.«130864_j90013924590022_2_alg».proof.Proof.Band

noncomputable section

namespace Cert.KernelIdeal.Chunks

open Cert.KernelIdeal Cert.KernelIdeal.Gen
open Idealize.ShloMosaic Idealize.ShloMosaic.TcCoe Idealize.ShloMosaic.ValueIdx
open Cert.LibShiftRows Cert.Band

/-- ROWS 0 … 511, the signal's first rows. The six advances are plain loads of the window moved up by j. The six
    delays cannot be loads (rows before the first do not exist): the kernel rotates the window's own 512 rows down
    by j and overwrites rows 0 … j − 1, which came around from the window's end, with zero — row p − j of the
    signal from row j on, zero before: the extension by zero at row p − j. -/
theorem rows_from_0 (x0 : Vec Ideal S1x4096x512 .f32) (x1 x2 : Vec Ideal S8x512 .f32) (x : S1x512x512.Idx) :
    (k0_pay8 (k0_pay7 (k0_pay5 (k0_pay2 (View.ld x0 r0_0) (View.ld x1 r0_1) (View.ld x0 r0_0) (View.ld x1 r0_2)
      (View.ld x0 r0_0)) (k0_pay3 (View.ld x1 r0_3)) (k0_pay4 (View.ld x0 r0_0)) 7#32 (View.ld x1 r0_4) (View.ld x0
      r0_0) (View.ld x1 r0_5) (View.ld x0 r0_0)) (k0_pay6 (View.ld x1 r0_6)) (View.ld x0 r0_0) (View.ld x2 r0_7)
      (View.ld x0 r0_8) (View.ld x2 r0_9) (View.ld x0 r0_10) (View.ld x2 r0_6) (View.ld x0 r0_11)) (View.ld x2 r0_5)
      (View.ld x0 r0_12) (View.ld x2 r0_4) (View.ld x0 r0_13) (View.ld x2 r0_3) (View.ld x0 r0_14)) x
      = band x0 x1 x2 (r0_0.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay8, k0_pay7, k0_pay5, k0_pay2, k0_pay3, k0_pay4, k0_pay6,
    View.ld, add_unit, addf_apply, mulf_apply, rows_of_vec, vec_of_row,
    rot_mask_low (n := 512) 1 (by decide) (by decide), rot_mask_low (n := 512) 4 (by decide) (by decide),
    rot_mask_low (n := 512) 7 (by decide) (by decide), rot_mask_low (n := 512) 10 (by decide) (by decide),
    rot_mask_low (n := 512) 13 (by decide) (by decide), rot_mask_low (n := 512) 16 (by decide) (by decide),
    zero_word, drop_unit, idx_rows, idx_row]
  iterate 6 (refine congrArg₂ (· + ·) ?_ (congrArg₂ (· * ·) rfl (rowOr_eq_of_nat _ _ _ _ _ _ _ (by omega))))
  iterate 6 (refine congrArg₂ (· + ·) ?_ (congrArg₂ (· * ·) rfl
    (dite_rowOr_low _ _ _ _ _ _ _ _ (fun h => by omega) (fun h => by omega))))
  exact rowOr_eq_of_nat _ _ _ _ _ _ _ (by omega)

/-- ROWS 512 … 1023: every shifted window is inside the signal, so each of the twelve taps is a plain load of
    512 rows from row 512 ∓ j, and row 512 + p of the result is the filter's thirteen terms at that row. -/
theorem rows_from_512 (x0 : Vec Ideal S1x4096x512 .f32) (x1 x2 : Vec Ideal S8x512 .f32) (x : S1x512x512.Idx) :
    (k0_pay14 (k0_pay13 (k0_pay11 (k0_pay9 (View.ld x0 r0_15)) (k0_pay10 (View.ld x1 r0_1) (View.ld x0 r0_16))
      (View.ld x1 r0_2) (View.ld x0 r0_17) (View.ld x1 r0_3) (View.ld x0 r0_18) (View.ld x1 r0_4) (View.ld x0 r0_19)
      (View.ld x1 r0_5) (View.ld x0 r0_20)) (k0_pay12 (View.ld x1 r0_6)) (View.ld x0 r0_21) (View.ld x2 r0_7) (View.ld
      x0 r0_22) (View.ld x2 r0_9) (View.ld x0 r0_23) (View.ld x2 r0_6) (View.ld x0 r0_24) (View.ld x2 r0_5) (View.ld
      x0 r0_25)) (View.ld x2 r0_4) (View.ld x0 r0_26) (View.ld x2 r0_3) (View.ld x0 r0_27)) x
      = band x0 x1 x2 (r0_15.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay14, k0_pay13, k0_pay11, k0_pay9, k0_pay10, k0_pay12,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

/-- ROWS 1024 … 1535: every shifted window is inside the signal, so each of the twelve taps is a plain load of
    512 rows from row 1024 ∓ j, and row 1024 + p of the result is the filter's thirteen terms at that row. -/
theorem rows_from_1024 (x0 : Vec Ideal S1x4096x512 .f32) (x1 x2 : Vec Ideal S8x512 .f32) (x : S1x512x512.Idx) :
    (k0_pay21 (k0_pay20 (k0_pay18 (k0_pay15 (View.ld x0 r0_28) (View.ld x1 r0_1) (View.ld x0 r0_29)) (k0_pay16
      (View.ld x0 r0_30)) (k0_pay17 (View.ld x1 r0_2)) (View.ld x1 r0_3) (View.ld x0 r0_31) (View.ld x1 r0_4) (View.ld
      x0 r0_32) (View.ld x1 r0_5) (View.ld x0 r0_33) (View.ld x1 r0_6) (View.ld x0 r0_34)) (k0_pay19 (View.ld x2
      r0_7)) (View.ld x0 r0_35) (View.ld x2 r0_9) (View.ld x0 r0_36) (View.ld x2 r0_6) (View.ld x0 r0_37) (View.ld x2
      r0_5) (View.ld x0 r0_38) (View.ld x2 r0_4) (View.ld x0 r0_39)) (View.ld x2 r0_3) (View.ld x0 r0_40)) x
      = band x0 x1 x2 (r0_28.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay21, k0_pay20, k0_pay18, k0_pay15, k0_pay16, k0_pay17, k0_pay19,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

/-- ROWS 1536 … 2047: every shifted window is inside the signal, so each of the twelve taps is a plain load of
    512 rows from row 1536 ∓ j, and row 1536 + p of the result is the filter's thirteen terms at that row. -/
theorem rows_from_1536 (x0 : Vec Ideal S1x4096x512 .f32) (x1 x2 : Vec Ideal S8x512 .f32) (x : S1x512x512.Idx) :
    (k0_pay28 (k0_pay27 (k0_pay25 (k0_pay22 (View.ld x0 r0_41) (View.ld x1 r0_1) (View.ld x0 r0_42) (View.ld x1 r0_2)
      (View.ld x0 r0_43)) (k0_pay23 (View.ld x0 r0_44)) (k0_pay24 (View.ld x1 r0_3)) (View.ld x1 r0_4) (View.ld x0
      r0_45) (View.ld x1 r0_5) (View.ld x0 r0_46) (View.ld x1 r0_6) (View.ld x0 r0_47) (View.ld x2 r0_7) (View.ld x0
      r0_48)) (k0_pay26 (View.ld x2 r0_9)) (View.ld x0 r0_49) (View.ld x2 r0_6) (View.ld x0 r0_50) (View.ld x2 r0_5)
      (View.ld x0 r0_51) (View.ld x2 r0_4) (View.ld x0 r0_52) (View.ld x2 r0_3) (View.ld x0 r0_53))) x
      = band x0 x1 x2 (r0_41.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay28, k0_pay27, k0_pay25, k0_pay22, k0_pay23, k0_pay24, k0_pay26,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

end Cert.KernelIdeal.Chunks

end
-- ==== Proof.ChunksHigh.lean ====
/-
  THE KERNEL'S BODY, 512 ROWS AT A TIME (rows 2048 … 4095).

  For one batch the kernel holds the whole signal x0 : [1, 4096, 512] and both weight tables x1, x2 : [8, 512], and
  writes the result in eight stores of 512 rows each. The value it stores for rows 512·c … 512·c + 511 starts from
  those rows of x0 and adds, in the filter's order, weight row × shifted window, twelve times; every weight row is
  one row of a table, loaded as [1, 512], flattened, and laid along the 512 rows of the window. Each theorem here
  reads one store's value at local index (0, p, q) and finds the filter of (x0, x1, x2) at row 512·c + p: term by
  term the two sums have the same weight and the same entry of the signal extended by zero.
-/
import proofs.«130864_j90013924590022_2_alg».proof.Proof.Gen.KernelIdeal.Frame
import proofs.«130864_j90013924590022_2_alg».proof.Proof.Band

noncomputable section

namespace Cert.KernelIdeal.Chunks

open Cert.KernelIdeal Cert.KernelIdeal.Gen
open Idealize.ShloMosaic Idealize.ShloMosaic.TcCoe Idealize.ShloMosaic.ValueIdx
open Cert.LibShiftRows Cert.Band

/-- ROWS 2048 … 2559: every shifted window is inside the signal, so each of the twelve taps is a plain load of
    512 rows from row 2048 ∓ j, and row 2048 + p of the result is the filter's thirteen terms at that row. -/
theorem rows_from_2048 (x0 : Vec Ideal S1x4096x512 .f32) (x1 x2 : Vec Ideal S8x512 .f32) (x : S1x512x512.Idx) :
    (k0_pay34 (k0_pay32 (k0_pay29 (View.ld x0 r0_54) (View.ld x1 r0_1) (View.ld x0 r0_55) (View.ld x1 r0_2) (View.ld
      x0 r0_56) (View.ld x1 r0_3) (View.ld x0 r0_57)) (k0_pay30 (View.ld x1 r0_4)) (k0_pay31 (View.ld x0 r0_58))
      (View.ld x1 r0_5) (View.ld x0 r0_59) (View.ld x1 r0_6) (View.ld x0 r0_60) (View.ld x2 r0_7) (View.ld x0 r0_61)
      (View.ld x2 r0_9) (View.ld x0 r0_62)) (k0_pay33 (View.ld x2 r0_6)) (View.ld x0 r0_63) (View.ld x2 r0_5) (View.ld
      x0 r0_64) (View.ld x2 r0_4) (View.ld x0 r0_65) (View.ld x2 r0_3) (View.ld x0 r0_66)) x
      = band x0 x1 x2 (r0_54.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay34, k0_pay32, k0_pay29, k0_pay30, k0_pay31, k0_pay33,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

/-- ROWS 2560 … 3071: every shifted window is inside the signal, so each of the twelve taps is a plain load of
    512 rows from row 2560 ∓ j, and row 2560 + p of the result is the filter's thirteen terms at that row. -/
theorem rows_from_2560 (x0 : Vec Ideal S1x4096x512 .f32) (x1 x2 : Vec Ideal S8x512 .f32) (x : S1x512x512.Idx) :
    (k0_pay39 (k0_pay38 (k0_pay36 (k0_pay35 (View.ld x0 r0_67)) (View.ld x1 r0_1) (View.ld x0 r0_68) (View.ld x1
      r0_2) (View.ld x0 r0_69) (View.ld x1 r0_3) (View.ld x0 r0_70) (View.ld x1 r0_4) (View.ld x0 r0_71)) (k0_pay37
      (View.ld x1 r0_5)) (View.ld x0 r0_72) (View.ld x1 r0_6) (View.ld x0 r0_73) (View.ld x2 r0_7) (View.ld x0 r0_74)
      (View.ld x2 r0_9) (View.ld x0 r0_75) (View.ld x2 r0_6) (View.ld x0 r0_76)) (View.ld x2 r0_5) (View.ld x0 r0_77)
      (View.ld x2 r0_4) (View.ld x0 r0_78) (View.ld x2 r0_3) (View.ld x0 r0_79)) x
      = band x0 x1 x2 (r0_67.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay39, k0_pay38, k0_pay36, k0_pay35, k0_pay37,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

/-- ROWS 3072 … 3583: every shifted window is inside the signal, so each of the twelve taps is a plain load of
    512 rows from row 3072 ∓ j, and row 3072 + p of the result is the filter's thirteen terms at that row. -/
theorem rows_from_3072 (x0 : Vec Ideal S1x4096x512 .f32) (x1 x2 : Vec Ideal S8x512 .f32) (x : S1x512x512.Idx) :
    (k0_pay45 (k0_pay44 (k0_pay42 (k0_pay40 (View.ld x0 r0_80)) (k0_pay41 (View.ld x1 r0_1) (View.ld x0 r0_81))
      (View.ld x1 r0_2) (View.ld x0 r0_82) (View.ld x1 r0_3) (View.ld x0 r0_83) (View.ld x1 r0_4) (View.ld x0 r0_84)
      (View.ld x1 r0_5) (View.ld x0 r0_85)) (k0_pay43 (View.ld x1 r0_6)) (View.ld x0 r0_86) (View.ld x2 r0_7) (View.ld
      x0 r0_87) (View.ld x2 r0_9) (View.ld x0 r0_88) (View.ld x2 r0_6) (View.ld x0 r0_89) (View.ld x2 r0_5) (View.ld
      x0 r0_90)) (View.ld x2 r0_4) (View.ld x0 r0_91) (View.ld x2 r0_3) (View.ld x0 r0_92)) x
      = band x0 x1 x2 (r0_80.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay45, k0_pay44, k0_pay42, k0_pay40, k0_pay41, k0_pay43,
    View.ld, add_unit, addf_apply, mulf_apply, rows_of_vec, vec_of_row,
    drop_unit, idx_rows, idx_row]
  iterate 12 (refine congrArg₂ (· + ·) ?_ (congrArg₂ (· * ·) rfl (rowOr_eq_of_nat _ _ _ _ _ _ _ (by omega))))
  exact rowOr_eq_of_nat _ _ _ _ _ _ _ (by omega)

/-- ROWS 3584 … 4095, the signal's last rows. The six delays are plain loads of the window moved down by j. The six
    advances cannot be loads (rows after the last do not exist): the kernel rotates the window's own 512 rows down
    by 512 − j and overwrites rows 512 − j … 511 with zero — row p + j of the window below row 512 − j, zero from
    there on: the extension by zero at row 3584 + p + j. -/
theorem rows_from_3584 (x0 : Vec Ideal S1x4096x512 .f32) (x1 x2 : Vec Ideal S8x512 .f32) (x : S1x512x512.Idx) :
    (k0_pay1 (k0_pay52 (k0_pay51 (k0_pay49 (k0_pay46 (View.ld x0 r0_93) (View.ld x1 r0_1) (View.ld x0 r0_94))
      (k0_pay47 (View.ld x0 r0_95)) (k0_pay48 (View.ld x1 r0_2)) (View.ld x1 r0_3) (View.ld x0 r0_96) (View.ld x1
      r0_4) (View.ld x0 r0_97) (View.ld x1 r0_5) (View.ld x0 r0_98) (View.ld x1 r0_6) (View.ld x0 r0_99)) (k0_pay50
      (View.ld x2 r0_7)) (View.ld x0 r0_93) (View.ld x2 r0_9) (View.ld x0 r0_93) (View.ld x2 r0_6) (View.ld x0 r0_93))
      (View.ld x2 r0_5) (View.ld x0 r0_93) (View.ld x2 r0_4) (View.ld x0 r0_93)) (k0_pay53 (View.ld x2 r0_3))
      (k0_pay54 (View.ld x0 r0_93)) k0_pay55 (Scalar.ofBits .f32 0x00000000#32)) x
      = band x0 x1 x2 (r0_93.emb x) := by
  obtain ⟨i, p, q, rfl⟩ : ∃ (i : Fin 1) (p : Fin 512) (q : Fin 512), x = ix3 i p q := ⟨x 0, x 1, x 2, eq_ix3 x⟩
  obtain rfl : i = 0 := Subsingleton.elim _ _
  rw [emb_rows, band_apply_ext]
  simp only [k0_pay1, k0_pay52, k0_pay51, k0_pay49, k0_pay46, k0_pay47, k0_pay48, k0_pay50, k0_pay53, k0_pay54, k0_pay55,
    View.ld, add_unit, addf_apply, mulf_apply, rows_of_vec, vec_of_row,
    rot_mask_high (n := 512) 511 (by decide) (by decide), rot_mask_high (n := 512) 508 (by decide) (by decide),
    rot_mask_high (n := 512) 505 (by decide) (by decide), rot_mask_high (n := 512) 502 (by decide) (by decide),
    rot_mask_high (n := 512) 499 (by decide) (by decide), rot_mask_high (n := 512) 496 (by decide) (by decide),
    zero_word, drop_unit, idx_rows, idx_row]
  iterate 6 (refine congrArg₂ (· + ·) ?_ (congrArg₂ (· * ·) rfl
    (dite_rowOr_high _ _ _ _ _ _ _ _ (fun h => by omega) (fun h => by omega))))
  iterate 6 (refine congrArg₂ (· + ·) ?_ (congrArg₂ (· * ·) rfl (rowOr_eq_of_nat _ _ _ _ _ _ _ (by omega))))
  exact rowOr_eq_of_nat _ _ _ _ _ _ _ (by omega)

end Cert.KernelIdeal.Chunks

end
-- ==== Proof.KernelBand.lean ====
/-
  THE KERNEL'S RESULT ARRAY IS THE BANDED FILTER.

  The grid has one point per batch. At point t the kernel is handed batch t of P (one block [1, 4096, 512]) and
  both weight tables whole, and what it leaves in the output's block, eight stores of 512 rows that tile the block,
  is the filter of that one batch (out_eq: each store is the filter on its rows, by the chunk theorems). The filter
  never mixes batches, so the filter of batch t of P is batch t of the filter of P (band_of_batch), which is what
  point t writes back (flushed_eq). The sixteen blocks written back cover the array, so after the run the array
  is the filter of the three arguments (final, run).
-/
import proofs.«130864_j90013924590022_2_alg».proof.Proof.Gen.KernelIdeal.Value
import proofs.«130864_j90013924590022_2_alg».proof.Proof.ChunksLow
import proofs.«130864_j90013924590022_2_alg».proof.Proof.ChunksHigh

noncomputable section

namespace Cert.KernelIdeal.KernelBand

open Cert.KernelIdeal Cert.KernelIdeal.Gen Cert.KernelIdeal.Chunks
open Idealize.ShloMosaic Idealize.ShloMosaic.TcCoe Idealize.SL.Sem Idealize.ShloMosaic.ValueIdx
open Idealize.ShloMosaic.Pipeline (Dat)
open Cert.LibShiftRows Cert.Band

/-! ## One batch through the body -/

/-- What the body leaves in the output block is the filter of the batch it was handed: the eight stores tile the
    block, and each holds the filter on its 512 rows. -/
theorem out_eq (x0 : Vec Ideal S1x4096x512 .f32) (x1 x2 : Vec Ideal S8x512 .f32) :
    out0_3 (F := Ideal) x0 x1 x2 = band x0 x1 x2 := by
  funext y
  unfold out0_3
  refine View.canon_apply_of_pieces (Val := Elt Ideal) (band x0 x1 x2) _ (fun pc hpc => ?_) y (cover0_3 _ _ _ _ _ _ _ _ y)
  rcases List.mem_cons.mp hpc with rfl | hpc
  · exact rows_from_3584 x0 x1 x2
  rcases List.mem_cons.mp hpc with rfl | hpc
  · exact rows_from_3072 x0 x1 x2
  rcases List.mem_cons.mp hpc with rfl | hpc
  · exact rows_from_2560 x0 x1 x2
  rcases List.mem_cons.mp hpc with rfl | hpc
  · exact rows_from_2048 x0 x1 x2
  rcases List.mem_cons.mp hpc with rfl | hpc
  · exact rows_from_1536 x0 x1 x2
  rcases List.mem_cons.mp hpc with rfl | hpc
  · exact rows_from_1024 x0 x1 x2
  rcases List.mem_cons.mp hpc with rfl | hpc
  · exact rows_from_512 x0 x1 x2
  rcases List.mem_cons.mp hpc with rfl | hpc
  · exact rows_from_0 x0 x1 x2
  exact absurd hpc List.not_mem_nil

/-- The filter does not mix batches: if x0 is batch b of P, the filter of x0 is batch b of the filter of P. -/
theorem band_of_batch {A N D : Nat} (P : (⟨3, ![A, N, D]⟩ : Shape).Idx → EReal)
    (x0 : (⟨3, ![1, N, D]⟩ : Shape).Idx → EReal) (memL memR : (⟨2, ![8, D]⟩ : Shape).Idx → EReal) (b : Fin A)
    (hx : ∀ (r : Fin N) (d : Fin D), x0 (ix3 (0 : Fin 1) r d) = P (ix3 b r d)) (r : Fin N) (d : Fin D) :
    band x0 memL memR (ix3 (0 : Fin 1) r d) = band P memL memR (ix3 b r d) := by
  have hrow : ∀ n : ℤ, rowOr 0 x0 (0 : Fin 1) d n = rowOr 0 P b d n := fun n => by
    unfold rowOr
    by_cases h : 0 ≤ n ∧ n < (N : ℤ)
    · rw [dif_pos h, dif_pos h]; exact hx _ d
    · rw [dif_neg h, dif_neg h]
  rw [band_apply, band_apply, hx r d]
  simp only [hrow]

variable (m : (ℓ : Loc nD τ sig) → Buf (Elt Ideal) ℓ) (ρ : Dev nD → PrngReg)

/-! ## The blocks at a grid point -/

/-- The printed index maps over the sixteen points: point t takes batch t of P and of the output, at row 0 and
    lane 0, and both tables whole. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- There are sixteen points. -/
theorem lt16 (t : Fin cfg0.N) : t.val < 16 := by
  have h := t.isLt
  have e : cfg0.N = 16 := N_0
  omega

/-- The block of P at point t is batch t of P. -/
theorem iblk0_apply (c : Dev nD) (t : Fin cfg0.N) (r : Fin 4096) (d : Fin 512) :
    (iblk m c 0 t : Vec Ideal S1x4096x512 .f32) (ix3 (0 : Fin 1) r d)
      = (V m c main_arg0 : S16x4096x512.Idx → EReal) (ix3 (⟨t.val, lt16 t⟩ : Fin 16) r d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; rw [e0]; omega
  | ⟨1, _⟩ => show win0_0.index t (1 : Fin 3) * 4096 + 1 * r.val = r.val; rw [e1]; omega
  | ⟨2, _⟩ => show win0_0.index t (2 : Fin 3) * 512 + 1 * d.val = d.val; rw [e2]; omega

/-- The block of the left table at every point is the table. -/
theorem iblk1_eq (c : Dev nD) (t : Fin cfg0.N) :
    (iblk m c 1 t : Vec Ideal S8x512 .f32) = (V m c main_arg1 : S8x512.Idx → EReal) := by
  obtain ⟨-, -, -, -, -, -, e0, e1, -⟩ := idx_facts t
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 8 + 1 * (y 0).val = (y 0).val; rw [e0]; omega
  | ⟨1, _⟩ => show win0_1.index t (1 : Fin 2) * 512 + 1 * (y 1).val = (y 1).val; rw [e1]; omega

/-- The block of the right table at every point is the table. -/
theorem iblk2_eq (c : Dev nD) (t : Fin cfg0.N) :
    (iblk m c 2 t : Vec Ideal S8x512 .f32) = (V m c main_arg2 : S8x512.Idx → EReal) := by
  obtain ⟨-, -, -, -, -, -, -, -, e0, e1⟩ := idx_facts t
  funext y
  unfold iblk
  rw [View.read_apply]
  show V m c main_arg2 _ = V m c main_arg2 y
  refine congrArg (V m c main_arg2) (funext fun a => Fin.ext ?_)
  match a with
  | ⟨0, _⟩ => show win0_2.index t (0 : Fin 2) * 8 + 1 * (y 0).val = (y 0).val; rw [e0]; omega
  | ⟨1, _⟩ => show win0_2.index t (1 : Fin 2) * 512 + 1 * (y 1).val = (y 1).val; rw [e1]; omega

/-- Local index (0, r, d) of the output's block at point t is index (t, r, d) of the array. -/
theorem oblk_emb (t : Fin cfg0.N) (r : Fin 4096) (d : Fin 512) :
    ((cfg0.win 3).blk t).view.emb (ix3 (0 : Fin 1) r d) = ix3 (⟨t.val, lt16 t⟩ : Fin 16) r d := by
  obtain ⟨-, -, -, e0, e1, e2, -⟩ := idx_facts t
  funext a
  apply Fin.ext
  match a with
  | ⟨0, _⟩ => show win0_3.index t (0 : Fin 3) * 1 + 1 * 0 = t.val; rw [e0]; omega
  | ⟨1, _⟩ => show win0_3.index t (1 : Fin 3) * 4096 + 1 * r.val = r.val; rw [e1]; omega
  | ⟨2, _⟩ => show win0_3.index t (2 : Fin 3) * 512 + 1 * d.val = d.val; rw [e2]; omega

/-! ## What each point writes back, and the array after the run -/

/-- Point t writes back block t of the filter of the three argument arrays. -/
theorem flushed_eq (c : Dev nD) (t : Fin cfg0.N) :
    (dats m 0 c).flushed 3 t
      = ((cfg0.win 3).blk t).view.read (Elt Ideal) (band (V m c main_arg0) (V m c main_arg1) (V m c main_arg2)) := by
  rw [Value.flushed3, out_eq, iblk1_eq, iblk2_eq]
  funext j
  obtain ⟨i, r, d, rfl⟩ : ∃ (i : Fin 1) (r : Fin 4096) (d : Fin 512), j = ix3 i r d := ⟨j 0, j 1, j 2, eq_ix3 j⟩
  obtain rfl : i = 0 := Subsingleton.elim _ _
  show band (iblk m c 0 t) (V m c main_arg1) (V m c main_arg2) (ix3 (0 : Fin 1) r d)
    = band (V m c main_arg0) (V m c main_arg1) (V m c main_arg2) (((cfg0.win 3).blk t).view.emb (ix3 (0 : Fin 1) r d))
  rw [oblk_emb]
  exact band_of_batch (V m c main_arg0) (iblk m c 0 t) _ _ ⟨t.val, lt16 t⟩ (fun r d => iblk0_apply m c t r d) r d

/-- An index of the array is in point t's block iff each coordinate is in the block's range on its axis. -/
theorem mem_blk (t : Fin cfg0.N) (i : S16x4096x512.Idx) :
    i ∈ ((cfg0.win 3).blk t).view.set ↔ ∀ a : Fin 3, win0_3.index t a * S1x4096x512.size a ≤ (i a).val
      ∧ (i a).val < win0_3.index t a * S1x4096x512.size a + S1x4096x512.size a := by
  show i ∈ ((View.whole main_v0).slice (win0_3.rect t)).set ↔ _
  rw [View.set_slice_whole, Rect.mem_set_unit]
  exact Iff.rfl

/-- After the run the result array is the filter of the three arguments: index (b, r, d) is in point b's block. -/
theorem final (c : Dev nD) :
    (dats m 0 c).arrAt 3 cfg0.N
      = band (m ((c : Thread nD τ).loc main_arg0)) (m ((c : Thread nD τ).loc main_arg1))
          (m ((c : Thread nD τ).loc main_arg2)) :=
  (dats m 0 c).arrAt_eq_of_cover 3 _ (fun t _ => flushed_eq m c t) (fun i => by
    have hi0 : (i 0).val < 16 := (i 0).isLt
    have hi1 : (i 1).val < 4096 := (i 1).isLt
    have hi2 : (i 2).val < 512 := (i 2).isLt
    obtain ⟨t, ht⟩ : ∃ t : Fin cfg0.N, t.val = (i 0).val :=
      ⟨⟨(i 0).val, by have e : cfg0.N = 16 := N_0; omega⟩, rfl⟩
    obtain ⟨-, -, -, e0, e1, e2, -⟩ := idx_facts t
    refine ⟨t, flush0_3 t, ?_⟩
    rw [mem_blk]
    intro a
    match a with
    | ⟨0, _⟩ =>
      show win0_3.index t (0 : Fin 3) * 1 ≤ (i 0).val ∧ (i 0).val < win0_3.index t (0 : Fin 3) * 1 + 1
      rw [e0]; omega
    | ⟨1, _⟩ =>
      show win0_3.index t (1 : Fin 3) * 4096 ≤ (i 1).val ∧ (i 1).val < win0_3.index t (1 : Fin 3) * 4096 + 4096
      rw [e1]; omega
    | ⟨2, _⟩ =>
      show win0_3.index t (2 : Fin 3) * 512 ≤ (i 2).val ∧ (i 2).val < win0_3.index t (2 : Fin 3) * 512 + 512
      rw [e2]; omega)

/-- The kernel's run, read: the result array ends at the filter of the arguments, the arguments unchanged. -/
theorem run : θ_run defs (onTc (τ := τ) (main (F := Ideal))) ⟨m, fun _ => 0, ρ⟩ fun r => ∀ c : Dev nD,
      r.2.mem ((c : Thread nD τ).loc main_v0)
        = band (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelBand

end
-- ==== Proof.RefBand.lean ====
/-
  THE REFERENCE IS THE BANDED FILTER.

  The host program adds to P, one after another, twelve products: a weight row laid along every row of every batch,
  times P shifted along its rows. It spells a delay by j as "pad j rows of zero in front, keep the first 4096 rows"
  and an advance by j as "pad j rows of zero behind, keep the last 4096 rows"; the zero it pads with is the integer
  zero converted. Read at an index, each shifted copy is P extended by zero at row r − j or r + j, and the result is
  the filter term by term, in the filter's own order.
-/
import proofs.«130864_j90013924590022_2_alg».proof.Proof.Gen.ReferenceIdeal.Run
import proofs.«130864_j90013924590022_2_alg».proof.Proof.Band

noncomputable section

namespace Cert.ReferenceIdeal.RefBand

open Cert.ReferenceIdeal Cert.ReferenceIdeal.Gen Cert.ReferenceIdeal.Value
open Idealize.ShloMosaic Idealize.ShloMosaic.TcCoe Idealize.SL.Sem Idealize.ShloMosaic.ValueIdx
open Cert.LibShiftRows Cert.Band

/-- The value the host pads with, the integer zero converted to a float, is zero. -/
theorem pad_value (hu : 0 < S_.numel) :
    (sitofp .f32 (constantI S_ 32 0#32) : FVec Ideal S_ .f32) (Shape.Idx.first hu) = 0 := by
  show ((((0#32 : BitVec 32).toInt : ℤ) : ℝ) : EReal) = 0
  simp

/-- The reference's result array is the banded filter of its three arguments. -/
theorem result_eq (m : (ℓ : Loc nD τ sig) → Buf (Elt Ideal) ℓ) (c : Dev nD) :
    res_main_v95 (F := Ideal) m c
      = band (m ((c.tc : Thread nD τ).loc main_arg0)) (m ((c.tc : Thread nD τ).loc main_arg1))
          (m ((c.tc : Thread nD τ).loc main_arg2)) := by
  funext i
  obtain ⟨b, r, d, rfl⟩ : ∃ (b : Fin 16) (r : Fin 4096) (d : Fin 512), i = ix3 b r d := ⟨i 0, i 1, i 2, eq_ix3 i⟩
  rw [band_apply]
  unfold res_main_v95
  simp only [addf_apply, mulf_apply, pad_front_rows, pad_back_rows, pad_value, Nat.cast_ofNat, Nat.cast_one]
  iterate 12 rw [ref_row_bcast]
  rfl

end Cert.ReferenceIdeal.RefBand

end
-- ==== Proof.lean ====
/-
  THE CERTIFICATE: a banded filter of a batch of signals, computed by a kernel 512 rows at a time and by a host
  program one shifted copy at a time.

  Both programs compute, for P : [16, 4096, 512] and weight tables memL, memR : [8, 512],

      out[b, r, d] = P[b, r, d] + Σ_j memL[ρ(j), d] · P[b, r − j, d] + Σ_j memR[σ(j), d] · P[b, r + j, d]

  over the six offsets j ∈ {1, 4, 7, 10, 13, 16}, with P read as zero outside rows 0 … 4095 (Proof/Band.lean states
  it once, as band). The host program pads and slices P twelve times (Proof/RefBand.lean); the kernel takes one
  batch per grid point, reads every shifted window of 512 rows straight out of the batch, and at the two ends of the
  signal rotates the window and overwrites the rows that came around with zero (Proof/ChunksLow.lean,
  Proof/ChunksHigh.lean, Proof/KernelBand.lean). The thirteen terms are added in the same order by both, so the two
  results are equal as extended reals index by index with no law of arithmetic used beyond 0 being the float word
  zero, and the finiteness of the inputs is never needed.

  The three frames are the generated frame runs (the reference's is its generated run with the result dropped); the
  idealization rewrote nothing, so preserves is trivial.
-/
import proofs.«130864_j90013924590022_2_alg».proof.Defs
import proofs.«130864_j90013924590022_2_alg».proof.Proof.Gen.Kernel
import proofs.«130864_j90013924590022_2_alg».proof.Proof.Gen.Kernel.Skeleton
import proofs.«130864_j90013924590022_2_alg».proof.Proof.Gen.Kernel.Launch
import proofs.«130864_j90013924590022_2_alg».proof.Proof.Gen.Kernel.Points
import proofs.«130864_j90013924590022_2_alg».proof.Proof.Gen.Kernel.Frame
import proofs.«130864_j90013924590022_2_alg».proof.Proof.Gen.KernelIdeal
import proofs.«130864_j90013924590022_2_alg».proof.Proof.Gen.KernelIdeal.Skeleton
import proofs.«130864_j90013924590022_2_alg».proof.Proof.Gen.KernelIdeal.Launch
import proofs.«130864_j90013924590022_2_alg».proof.Proof.Gen.KernelIdeal.Points
import proofs.«130864_j90013924590022_2_alg».proof.Proof.Gen.KernelIdeal.Frame
import proofs.«130864_j90013924590022_2_alg».proof.Proof.Gen.ReferenceIdeal
import proofs.«130864_j90013924590022_2_alg».proof.Proof.Gen.Pre_finite_inputs
import proofs.«130864_j90013924590022_2_alg».proof.Proof.Gen.KernelIdeal.Value
import proofs.«130864_j90013924590022_2_alg».proof.Proof.Gen.ReferenceIdeal.Run
import proofs.«130864_j90013924590022_2_alg».proof.Proof.KernelBand
import proofs.«130864_j90013924590022_2_alg».proof.Proof.RefBand
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    banded filter of those arguments. -/
theorem algebraic : Cert.algebraic_KernelIdeal_ReferenceIdeal := by
  intro m ρ m' ρ' _ hagree
  refine ⟨_, Cert.KernelIdeal.KernelBand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefBand.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
